-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2x262144 : Shape := ⟨3, ![16, 2, 262144]⟩
abbrev S1025x2048 : Shape := ⟨2, ![1025, 2048]⟩
abbrev S_ : Shape := ⟨0, ![]⟩

class Facts : Prop where
  bcast_S_S16x2x262144 : S_.BroadcastsInDim S16x2x262144 (![] : Fin 0 → Fin S16x2x262144.rank)
  reducesTo_S16x2x262144_S_d0_1_2 : S16x2x262144.ReducesTo [0, 1, 2] S_
  h_S_ : 0 < S_.numel
  bcast_S_S1025x2048 : S_.BroadcastsInDim S1025x2048 (![] : Fin 0 → Fin S1025x2048.rank)
  reducesTo_S1025x2048_S_d0_1 : S1025x2048.ReducesTo [0, 1] S_

variable [Facts]

def fn {F : FTy → Type} [FloatOps F] (main_arg0 : FVec F S16x2x262144 .f32) (main_arg1 : FVec F S1025x2048 .f32) (main_arg2 : FVec F S1025x2048 .f32) : IVec S_ 1 :=
  let main_v0 : FVec F S16x2x262144 .f32 := Host.absf main_arg0
  let main_cst : FVec F S_ .f32 := constant S_ .f32 0x7F800000#32
  let main_v1 : FVec F S16x2x262144 .f32 := broadcastInDim S16x2x262144 ![] bcast_S_S16x2x262144 main_cst
  let main_v2 : IVec S16x2x262144 1 := cmpf .olt main_v0 main_v1
  let main_c : IVec S_ 1 := constantI S_ 1 1#1
  let main_v3 : IVec S_ 1 := (fun x v => Host.reduce IntOp.andi x v reducesTo_S16x2x262144_S_d0_1_2 h_S_) main_v2 main_c
  let main_v4 : FVec F S1025x2048 .f32 := Host.absf main_arg1
  let main_cst_0 : FVec F S_ .f32 := constant S_ .f32 0x7F800000#32
  let main_v5 : FVec F S1025x2048 .f32 := broadcastInDim S1025x2048 ![] bcast_S_S1025x2048 main_cst_0
  let main_v6 : IVec S1025x2048 1 := cmpf .olt main_v4 main_v5
  let main_c_1 : IVec S_ 1 := constantI S_ 1 1#1
  let main_v7 : IVec S_ 1 := (fun x v => Host.reduce IntOp.andi x v reducesTo_S1025x2048_S_d0_1 h_S_) main_v6 main_c_1
  let main_v8 : IVec S_ 1 := andi main_v3 main_v7
  let main_v9 : FVec F S1025x2048 .f32 := Host.absf main_arg2
  let main_cst_2 : FVec F S_ .f32 := constant S_ .f32 0x7F800000#32
  let main_v10 : FVec F S1025x2048 .f32 := broadcastInDim S1025x2048 ![] bcast_S_S1025x2048 main_cst_2
  let main_v11 : IVec S1025x2048 1 := cmpf .olt main_v9 main_v10
  let main_c_3 : IVec S_ 1 := constantI S_ 1 1#1
  let main_v12 : IVec S_ 1 := (fun x v => Host.reduce IntOp.andi x v reducesTo_S1025x2048_S_d0_1 h_S_) main_v11 main_c_3
  let main_v13 : IVec S_ 1 := andi main_v8 main_v12
  main_v13
-- ==== Kernel.lean ====
abbrev S16x2x262144 : Shape := ⟨3, ![16, 2, 262144]⟩
abbrev S1025x2048 : Shape := ⟨2, ![1025, 2048]⟩
abbrev S_ : Shape := ⟨0, ![]⟩
abbrev S16x2x1 : Shape := ⟨3, ![16, 2, 1]⟩
abbrev S16x2x1024 : Shape := ⟨3, ![16, 2, 1024]⟩
abbrev S16x2x263168 : Shape := ⟨3, ![16, 2, 263168]⟩
abbrev S16x2x264192 : Shape := ⟨3, ![16, 2, 264192]⟩
abbrev S32x516x512 : Shape := ⟨3, ![32, 516, 512]⟩
abbrev S32x1025x513 : Shape := ⟨3, ![32, 1025, 513]⟩
abbrev S1x516x512 : Shape := ⟨3, ![1, 516, 512]⟩
abbrev S1x1025x513 : Shape := ⟨3, ![1, 1025, 513]⟩
abbrev S1025x513 : Shape := ⟨2, ![1025, 513]⟩
abbrev S1x513x512 : Shape := ⟨3, ![1, 513, 512]⟩
abbrev S513x512 : Shape := ⟨2, ![513, 512]⟩
abbrev S1025x512 : Shape := ⟨2, ![1025, 512]⟩
abbrev S16x2x1025x513 : Shape := ⟨4, ![16, 2, 1025, 513]⟩
abbrev S16x2050x513 : Shape := ⟨3, ![16, 2050, 513]⟩

abbrev nBuf : Space → Nat
  | .hbm => 22
  | .vmem => 8
  | .smem => 0
  | _ => 0

abbrev bufTy : (tb : Table) → Fin (tcTables nBuf tb) → BufTy
  | .hbm, ⟨0, _⟩ => ⟨S16x2x262144, .f32⟩
  | .hbm, ⟨1, _⟩ => ⟨S1025x2048, .f32⟩
  | .hbm, ⟨2, _⟩ => ⟨S1025x2048, .f32⟩
  | .hbm, ⟨3, _⟩ => ⟨S_, .i32⟩
  | .hbm, ⟨4, _⟩ => ⟨S16x2x1, .f32⟩
  | .hbm, ⟨5, _⟩ => ⟨S16x2x1024, .f32⟩
  | .hbm, ⟨6, _⟩ => ⟨S16x2x1024, .f32⟩
  | .hbm, ⟨7, _⟩ => ⟨S16x2x263168, .f32⟩
  | .hbm, ⟨8, _⟩ => ⟨S16x2x1, .f32⟩
  | .hbm, ⟨9, _⟩ => ⟨S16x2x1024, .f32⟩
  | .hbm, ⟨10, _⟩ => ⟨S16x2x1024, .f32⟩
  | .hbm, ⟨11, _⟩ => ⟨S16x2x264192, .f32⟩
  | .hbm, ⟨12, _⟩ => ⟨S16x2x264192, .bf16⟩
  | .hbm, ⟨13, _⟩ => ⟨S32x516x512, .bf16⟩
  | .hbm, ⟨14, _⟩ => ⟨S1025x2048, .bf16⟩
  | .hbm, ⟨15, _⟩ => ⟨S1025x2048, .bf16⟩
  | .hbm, ⟨16, _⟩ => ⟨S32x1025x513, .f32⟩
  | .hbm, ⟨17, _⟩ => ⟨S32x1025x513, .f32⟩
  | .hbm, ⟨18, _⟩ => ⟨S16x2x1025x513, .f32⟩
  | .hbm, ⟨19, _⟩ => ⟨S16x2050x513, .f32⟩
  | .hbm, ⟨20, _⟩ => ⟨S16x2x1025x513, .f32⟩
  | .hbm, ⟨21, _⟩ => ⟨S16x2050x513, .f32⟩
  | .local _ .vmem, ⟨0, _⟩ => ⟨S1x516x512, .bf16⟩
  | .local _ .vmem, ⟨1, _⟩ => ⟨S1x516x512, .bf16⟩
  | .local _ .vmem, ⟨2, _⟩ => ⟨S1025x2048, .bf16⟩
  | .local _ .vmem, ⟨3, _⟩ => ⟨S1025x2048, .bf16⟩
  | .local _ .vmem, ⟨4, _⟩ => ⟨S1x1025x513, .f32⟩
  | .local _ .vmem, ⟨5, _⟩ => ⟨S1x1025x513, .f32⟩
  | .local _ .vmem, ⟨6, _⟩ => ⟨S1x1025x513, .f32⟩
  | .local _ .vmem, ⟨7, _⟩ => ⟨S1x1025x513, .f32⟩
  | _, _ => ⟨S16x2x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x516x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1025x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1025x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1025x513 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1025x513 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S16x2x262144_S16x2x1_0_0_0 : S16x2x262144.Slices ![0, 0, 0] S16x2x1
  slices_S16x2x262144_S16x2x1024_0_0_1 : S16x2x262144.Slices ![0, 0, 1] S16x2x1024
  concatenates_S16x2x1024_S16x2x262144_S16x2x263168_d2 : Shape.Concatenates [S16x2x1024, S16x2x262144] S16x2x263168 2
  slices_S16x2x263168_S16x2x1_0_0_263167 : S16x2x263168.Slices ![0, 0, 263167] S16x2x1
  slices_S16x2x263168_S16x2x1024_0_0_262143 : S16x2x263168.Slices ![0, 0, 262143] S16x2x1024
  concatenates_S16x2x263168_S16x2x1024_S16x2x264192_d2 : Shape.Concatenates [S16x2x263168, S16x2x1024] S16x2x264192 2
  bitsLt_bf16_f32 : FTy.bits .bf16 < FTy.bits .f32
  shapeCasts_S16x2x264192_S32x516x512 : S16x2x264192.ShapeCasts S32x516x512
  inb_S1x516x512_S1x513x512_0_0_0 : ∀ a, (![0, 0, 0] : Fin 3 → Nat) a + S1x513x512.size a ≤ S1x516x512.size a
  h_S1x513x512 : 0 < S1x513x512.numel
  shapeCasts_S1x513x512_S513x512 : S1x513x512.ShapeCasts S513x512
  inb_S1025x2048_S1025x512_0_0 : ∀ a, (![0, 0] : Fin 2 → Nat) a + S1025x512.size a ≤ S1025x2048.size a
  h_S1025x512 : 0 < S1025x512.numel
  shapeCasts_S1025x512_S1025x512 : S1025x512.ShapeCasts S1025x512
  inb_S1x516x512_S1x513x512_0_1_0 : ∀ a, (![0, 1, 0] : Fin 3 → Nat) a + S1x513x512.size a ≤ S1x516x512.size a
  inb_S1025x2048_S1025x512_0_512 : ∀ a, (![0, 512] : Fin 2 → Nat) a + S1025x512.size a ≤ S1025x2048.size a
  inb_S1x516x512_S1x513x512_0_2_0 : ∀ a, (![0, 2, 0] : Fin 3 → Nat) a + S1x513x512.size a ≤ S1x516x512.size a
  inb_S1025x2048_S1025x512_0_1024 : ∀ a, (![0, 1024] : Fin 2 → Nat) a + S1025x512.size a ≤ S1025x2048.size a
  inb_S1x516x512_S1x513x512_0_3_0 : ∀ a, (![0, 3, 0] : Fin 3 → Nat) a + S1x513x512.size a ≤ S1x516x512.size a
  inb_S1025x2048_S1025x512_0_1536 : ∀ a, (![0, 1536] : Fin 2 → Nat) a + S1025x512.size a ≤ S1025x2048.size a
  inb_S1x1025x513_S1x1025x513_0_0_0 : ∀ a, (![0, 0, 0] : Fin 3 → Nat) a + S1x1025x513.size a ≤ S1x1025x513.size a
  h_S1x1025x513 : 0 < S1x1025x513.numel
  shapeCasts_S1x1025x513_S1025x513 : S1x1025x513.ShapeCasts S1025x513
  shapeCasts_S1025x513_S1x1025x513 : S1025x513.ShapeCasts S1x1025x513
  shapeCasts_S32x1025x513_S16x2x1025x513 : S32x1025x513.ShapeCasts S16x2x1025x513
  shapeCasts_S16x2x1025x513_S16x2050x513 : S16x2x1025x513.ShapeCasts S16x2050x513
  dot_S1025x512_S513x512_S1025x513_1_1_0_0_n_n_wf : DotDims.WF S1025x512 S513x512 S1025x513 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x516x512.size a ≤ S32x516x512.size a
  hwx0_0 : ∀ i : grid0.Coords, EltTy.bits .bf16 = 32 ∨ (Rect.block (s := S32x516x512) S1x516x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1025x2048.size a ≤ S1025x2048.size a
  hwx0_1 : ∀ i : grid0.Coords, EltTy.bits .bf16 = 32 ∨ (Rect.block (s := S1025x2048) S1025x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1025x2048.size a ≤ S1025x2048.size a
  hwx0_2 : ∀ i : grid0.Coords, EltTy.bits .bf16 = 32 ∨ (Rect.block (s := S1025x2048) S1025x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1025x513.size a ≤ S32x1025x513.size a
  hwx0_3 : ∀ i : grid0.Coords, EltTy.bits .f32 = 32 ∨ (Rect.block (s := S32x1025x513) S1x1025x513.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1025x513.size a ≤ S32x1025x513.size a
  hwx0_4 : ∀ i : grid0.Coords, EltTy.bits .f32 = 32 ∨ (Rect.block (s := S32x1025x513) S1x1025x513.size (cc0_transform_4 i) (hinb0_4 i)).WholeWords (EltTy.packing .f32)

variable [Facts₀]

def dot_S1025x512_S513x512_S1025x513_1_1_0_0_n_n : DotDims S1025x512 S513x512 S1025x513 where
  lhsContracting := [1]
  rhsContracting := [1]
  lhsNonContracting := [0]
  rhsNonContracting := [0]
  lhsBatch := []
  rhsBatch := []
  wf := dot_S1025x512_S513x512_S1025x513_1_1_0_0_n_n_wf

abbrev win0_0 : Pipeline.Window sig grid0 :=
  Pipeline.Window.ofSpec (Memref.whole main_v2) S1x516x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1025x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1025x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x1025x513.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x1025x513.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2x262144 : Shape := ⟨3, ![16, 2, 262144]⟩
abbrev S1025x2048 : Shape := ⟨2, ![1025, 2048]⟩
abbrev S_ : Shape := ⟨0, ![]⟩
abbrev S16x2x1 : Shape := ⟨3, ![16, 2, 1]⟩
abbrev S16x2x1024 : Shape := ⟨3, ![16, 2, 1024]⟩
abbrev S16x2x263168 : Shape := ⟨3, ![16, 2, 263168]⟩
abbrev S16x2x264192 : Shape := ⟨3, ![16, 2, 264192]⟩
abbrev S513 : Shape := ⟨1, ![513]⟩
abbrev S513x1 : Shape := ⟨2, ![513, 1]⟩
abbrev S2048 : Shape := ⟨1, ![2048]⟩
abbrev S1x2048 : Shape := ⟨2, ![1, 2048]⟩
abbrev S513x2048 : Shape := ⟨2, ![513, 2048]⟩
abbrev S513x2048x1 : Shape := ⟨3, ![513, 2048, 1]⟩
abbrev S16x2x513x2048 : Shape := ⟨4, ![16, 2, 513, 2048]⟩
abbrev S1025x16x2x513 : Shape := ⟨4, ![1025, 16, 2, 513]⟩
abbrev S16x2x1025x513 : Shape := ⟨4, ![16, 2, 1025, 513]⟩
abbrev S16x2050x513 : Shape := ⟨3, ![16, 2050, 513]⟩

abbrev nBuf : Space → Nat
  | .hbm => 37
  | .vmem => 0
  | .smem => 0
  | _ => 0

abbrev bufTy : (tb : Table) → Fin (tcTables nBuf tb) → BufTy
  | .hbm, ⟨0, _⟩ => ⟨S16x2x262144, .f32⟩
  | .hbm, ⟨1, _⟩ => ⟨S1025x2048, .f32⟩
  | .hbm, ⟨2, _⟩ => ⟨S1025x2048, .f32⟩
  | .hbm, ⟨3, _⟩ => ⟨S_, .i32⟩
  | .hbm, ⟨4, _⟩ => ⟨S16x2x1, .f32⟩
  | .hbm, ⟨5, _⟩ => ⟨S16x2x1024, .f32⟩
  | .hbm, ⟨6, _⟩ => ⟨S16x2x1024, .f32⟩
  | .hbm, ⟨7, _⟩ => ⟨S16x2x263168, .f32⟩
  | .hbm, ⟨8, _⟩ => ⟨S16x2x1, .f32⟩
  | .hbm, ⟨9, _⟩ => ⟨S16x2x1024, .f32⟩
  | .hbm, ⟨10, _⟩ => ⟨S16x2x1024, .f32⟩
  | .hbm, ⟨11, _⟩ => ⟨S16x2x264192, .f32⟩
  | .hbm, ⟨12, _⟩ => ⟨S513, .i32⟩
  | .hbm, ⟨13, _⟩ => ⟨S513x1, .i32⟩
  | .hbm, ⟨14, _⟩ => ⟨S_, .i32⟩
  | .hbm, ⟨15, _⟩ => ⟨S513x1, .i32⟩
  | .hbm, ⟨16, _⟩ => ⟨S513x1, .i32⟩
  | .hbm, ⟨17, _⟩ => ⟨S2048, .i32⟩
  | .hbm, ⟨18, _⟩ => ⟨S1x2048, .i32⟩
  | .hbm, ⟨19, _⟩ => ⟨S513x2048, .i32⟩
  | .hbm, ⟨20, _⟩ => ⟨S513x2048, .i32⟩
  | .hbm, ⟨21, _⟩ => ⟨S513x2048, .i32⟩
  | .hbm, ⟨22, _⟩ => ⟨S_, .i32⟩
  | .hbm, ⟨23, _⟩ => ⟨S513x2048, .i32⟩
  | .hbm, ⟨24, _⟩ => ⟨S513x2048, .i1⟩
  | .hbm, ⟨25, _⟩ => ⟨S_, .i32⟩
  | .hbm, ⟨26, _⟩ => ⟨S513x2048, .i32⟩
  | .hbm, ⟨27, _⟩ => ⟨S513x2048, .i32⟩
  | .hbm, ⟨28, _⟩ => ⟨S513x2048, .i32⟩
  | .hbm, ⟨29, _⟩ => ⟨S513x2048x1, .i32⟩
  | .hbm, ⟨30, _⟩ => ⟨S16x2x513x2048, .f32⟩
  | .hbm, ⟨31, _⟩ => ⟨S1025x16x2x513, .f32⟩
  | .hbm, ⟨32, _⟩ => ⟨S16x2x1025x513, .f32⟩
  | .hbm, ⟨33, _⟩ => ⟨S1025x16x2x513, .f32⟩
  | .hbm, ⟨34, _⟩ => ⟨S16x2x1025x513, .f32⟩
  | .hbm, ⟨35, _⟩ => ⟨S16x2050x513, .f32⟩
  | .hbm, ⟨36, _⟩ => ⟨S16x2050x513, .f32⟩
  | _, _ => ⟨S16x2x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  slices_S16x2x262144_S16x2x1_0_0_0 : S16x2x262144.Slices ![0, 0, 0] S16x2x1
  slices_S16x2x262144_S16x2x1024_0_0_1 : S16x2x262144.Slices ![0, 0, 1] S16x2x1024
  concatenates_S16x2x1024_S16x2x262144_S16x2x263168_d2 : Shape.Concatenates [S16x2x1024, S16x2x262144] S16x2x263168 2
  slices_S16x2x263168_S16x2x1_0_0_263167 : S16x2x263168.Slices ![0, 0, 263167] S16x2x1
  slices_S16x2x263168_S16x2x1024_0_0_262143 : S16x2x263168.Slices ![0, 0, 262143] S16x2x1024
  concatenates_S16x2x263168_S16x2x1024_S16x2x264192_d2 : Shape.Concatenates [S16x2x263168, S16x2x1024] S16x2x264192 2
  bcast_S513_S513x1_0 : S513.BroadcastsInDim S513x1 (![0] : Fin 1 → Fin S513x1.rank)
  bcast_S_S513x1 : S_.BroadcastsInDim S513x1 (![] : Fin 0 → Fin S513x1.rank)
  bcast_S2048_S1x2048_1 : S2048.BroadcastsInDim S1x2048 (![1] : Fin 1 → Fin S1x2048.rank)
  bcast_S513x1_S513x2048_0_1 : S513x1.BroadcastsInDim S513x2048 (![0, 1] : Fin 2 → Fin S513x2048.rank)
  bcast_S1x2048_S513x2048_0_1 : S1x2048.BroadcastsInDim S513x2048 (![0, 1] : Fin 2 → Fin S513x2048.rank)
  bcast_S_S513x2048 : S_.BroadcastsInDim S513x2048 (![] : Fin 0 → Fin S513x2048.rank)
  bcast_S513x2048_S513x2048x1_0_1 : S513x2048.BroadcastsInDim S513x2048x1 (![0, 1] : Fin 2 → Fin S513x2048x1.rank)
  transposes_S1025x16x2x513_S16x2x1025x513_1_2_0_3 : S1025x16x2x513.Transposes [1, 2, 0, 3] S16x2x1025x513
  shapeCasts_S16x2x1025x513_S16x2050x513 : S16x2x1025x513.ShapeCasts S16x2050x513
  gather_S16x2x264192_S513x2048x1_S16x2x513x2048_01_2_n_n_2_2_1621_wf : GatherDims.WF S16x2x264192 S513x2048x1 S16x2x513x2048 [0, 1] [2] [] [2] [] 2 ![16, 2, 1]
  dot_S1025x2048_S16x2x513x2048_S1025x16x2x513_1_3_0_012_n_n_wf : DotDims.WF S1025x2048 S16x2x513x2048 S1025x16x2x513 [1] [3] [0] [0, 1, 2] [] []

variable [Facts₀]

def gather_S16x2x264192_S513x2048x1_S16x2x513x2048_01_2_n_n_2_2_1621 : GatherDims S16x2x264192 S513x2048x1 S16x2x513x2048 where
  offsetDims := [0, 1]
  collapsedSliceDims := [2]
  operandBatchingDims := []
  startIndicesBatchingDims := []
  startIndexMap := [2]
  indexVectorDim := 2
  sliceSizes := ![16, 2, 1]
  wf := gather_S16x2x264192_S513x2048x1_S16x2x513x2048_01_2_n_n_2_2_1621_wf
def dot_S1025x2048_S16x2x513x2048_S1025x16x2x513_1_3_0_012_n_n : DotDims S1025x2048 S16x2x513x2048 S1025x16x2x513 where
  lhsContracting := [1]
  rhsContracting := [3]
  lhsNonContracting := [0]
  rhsNonContracting := [0, 1, 2]
  lhsBatch := []
  rhsBatch := []
  wf := dot_S1025x2048_S16x2x513x2048_S1025x16x2x513_1_3_0_012_n_n_wf

class Facts : Prop extends Facts₀ where

variable [Facts]
-- ==== Proof.Spec.lean ====
/-
  The mathematics both programs compute, stated once.

  A signal `x[b, c, ·]` of length 262144 is reflect-padded by 1024 samples on each side (`padded`): the left margin is
  the samples 1..1024 reversed, the right margin the samples 262143-1024..262143-1 reversed. Frame `t` (of 513) of
  the padded signal is its 2048 samples starting at `512 · t`. The windowed DFT projection of frame `t` on row `k`
  of a weight matrix `w` (1025 × 2048) is the sum over the 2048 taps `n` of `w[k, n] · xp[b, c, 512 · t + n]`
  (`tapSum`). The result array lists, for batch `b`, the `2 · 1025` rows `c · 1025 + k` (channel-major), each of
  513 frames (`stft`).

  The identity between the two programs is an identity in the padded signal: it holds for any array in the place
  of `padded x`, whatever the margins hold.
-/
import Idealize.ShloMosaic.PureOps.Ideal
import Idealize.ShloMosaic.Lib.ValueIdx

noncomputable section

namespace Cert.Stft

open Idealize.ShloMosaic Idealize.ShloMosaic.ValueIdx

/-- The signal `[16, 2, 262144]`. -/
abbrev SX : Shape := ⟨3, ![16, 2, 262144]⟩
/-- One reflected margin `[16, 2, 1024]`. -/
abbrev SH : Shape := ⟨3, ![16, 2, 1024]⟩
/-- The left margin followed by the signal `[16, 2, 263168]`. -/
abbrev SL : Shape := ⟨3, ![16, 2, 263168]⟩
/-- The padded signal `[16, 2, 264192]`. -/
abbrev SP : Shape := ⟨3, ![16, 2, 264192]⟩
/-- A weight matrix `[1025, 2048]`. -/
abbrev SW : Shape := ⟨2, ![1025, 2048]⟩
/-- A result `[16, 2050, 513]`. -/
abbrev SO : Shape := ⟨3, ![16, 2050, 513]⟩

theorem slice_left : SX.Slices ![0, 0, 1] SH := by decide
theorem cat_left : Shape.Concatenates [SH, SX] SL 2 := by decide
theorem slice_right : SL.Slices ![0, 0, 262143] SH := by decide
theorem cat_right : Shape.Concatenates [SL, SH] SP 2 := by decide

/-- The left margin (samples 1..1024 reversed) followed by the signal. -/
def leftPadded (x : FVec Ideal SX .f32) : FVec Ideal SL .f32 :=
  concatenate SL 2 [⟨SH, Host.reverse [2] (extractStridedSlice SH ![0, 0, 1] x slice_left)⟩, ⟨SX, x⟩] cat_left

/-- The reflect-padded signal: `leftPadded` followed by its own samples 262143..263166 reversed. -/
def padded (x : FVec Ideal SX .f32) : FVec Ideal SP .f32 :=
  concatenate SP 2 [⟨SL, leftPadded x⟩,
    ⟨SH, Host.reverse [2] (extractStridedSlice SH ![0, 0, 262143] (leftPadded x) slice_right)⟩] cat_right

/-- Sample `n` of frame `t`: position `512 · t + n` of the padded signal (at most `512 · 512 + 2047 = 264191`). -/
def pos (t : Fin 513) (n : Fin 2048) : Fin 264192 := ⟨512 * t.val + n.val, by omega⟩

/-- The projection of frame `t` of `xp[b, c, ·]` on row `k` of `w`: the sum over the 2048 taps. -/
def tapSum (xp : FVec Ideal SP .f32) (w : FVec Ideal SW .f32) (b : Fin 16) (c : Fin 2) (k : Fin 1025) (t : Fin 513) : EReal :=
  ∑ n : Fin 2048, w (ix2 k n) * xp (ix3 b c (pos t n))

theorem row_lt (j : SO.Idx) : (j 1).val < 2050 := (j 1).isLt

/-- The result array: row `c · 1025 + k` of batch `b` holds the projections of channel `c` on row `k`. -/
def stft (xp : FVec Ideal SP .f32) (w : FVec Ideal SW .f32) : FVec Ideal SO .f32 := fun j =>
  tapSum xp w ⟨(j 0).val, (j 0).isLt⟩ ⟨(j 1).val / 1025, by have := row_lt j; omega⟩
    ⟨(j 1).val % 1025, Nat.mod_lt _ (by decide)⟩ ⟨(j 2).val, (j 2).isLt⟩

/-- `stft` at an index given by coordinates. -/
theorem stft_apply (xp : FVec Ideal SP .f32) (w : FVec Ideal SW .f32) (b : Fin 16) (c : Fin 2) (k : Fin 1025) (t : Fin 513) :
    stft xp w (ix3 b ⟨c.val * 1025 + k.val, by omega⟩ t) = tapSum xp w b c k t := by
  unfold stft
  have h1 : (c.val * 1025 + k.val) / 1025 = c.val := by omega
  have h2 : (c.val * 1025 + k.val) % 1025 = k.val := by omega
  congr 1
  · exact Fin.ext h1
  · exact Fin.ext h2

end Cert.Stft

end
-- ==== Proof.KTap.lean ====
/-
  One block product of the kernel, read at an index.

  The kernel multiplies a [1025, 512] slab of a weight matrix by a [513, 512] slab of signal chunks, contracting the
  last axis of both, into a zero accumulator. At the ideal values entry (k, t) of the product is the plain sum over
  the 512 taps `s` of `a[k, s] · x[t, s]`: the accumulator is the real zero and nothing is rounded.
-/
import proofs.«165307_j76450417869070_1_alg».proof.Proof.Gen.KernelIdeal
import Idealize.ShloMosaic.Lib.ValueIdx
import Idealize.ShloMosaic.PureOps.Ideal.Laws

noncomputable section

namespace Cert.KernelIdeal.Tap

open Cert.KernelIdeal Idealize.ShloMosaic Idealize.ShloMosaic.ValueIdx

/-- The block product's dimension numbers: contract axis 1 of both operands. -/
abbrev D : DotDims S1025x512 S513x512 S1025x513 := dot_S1025x512_S513x512_S1025x513_1_1_0_0_n_n

theorem lhs_row (i : S1025x513.Idx) (q : D.contr.Idx) : (D.lhsIdx i q 0).val = (i 0).val := by
  unfold DotDims.lhsIdx
  rw [dif_neg (show ¬(0 : Fin S1025x512.rank) ∈ D.lhsBatch by decide),
    dif_pos (show (0 : Fin S1025x512.rank) ∈ D.lhsNonContracting by decide)]
  rfl

theorem lhs_tap (i : S1025x513.Idx) (q : D.contr.Idx) : (D.lhsIdx i q 1).val = (q ⟨0, by decide⟩).val :=
  D.lhsIdx_val_of_single rfl i q

theorem rhs_row (i : S1025x513.Idx) (q : D.contr.Idx) : (D.rhsIdx i q 0).val = (i 1).val := by
  unfold DotDims.rhsIdx
  rw [dif_neg (show ¬(0 : Fin S513x512.rank) ∈ D.rhsBatch by decide),
    dif_pos (show (0 : Fin S513x512.rank) ∈ D.rhsNonContracting by decide)]
  rfl

theorem rhs_tap (i : S1025x513.Idx) (q : D.contr.Idx) : (D.rhsIdx i q 1).val = (q ⟨0, by decide⟩).val :=
  D.rhsIdx_val_of_single rfl i q

/-- Entry (k, t) of a block product into the zero accumulator is `∑ s, a[k, s] · x[t, s]`. -/
theorem matmul_zero_apply (a : FVec Ideal S1025x512 .bf16) (x : FVec Ideal S513x512 .bf16) (k : Fin 1025) (t : Fin 513) :
    matmul D none a x (constant S1025x513 .f32 0x00000000#32) (ix2 k t) = ∑ s : Fin 512, a (ix2 k s) * x (ix2 t s) := by
  simp only [matmul]
  rw [Ideal.matmul_constant_zero_apply, ← Equiv.sum_comp (contrEquiv1 D 512 rfl rfl).symm]
  refine Finset.sum_congr rfl fun s _ => ?_
  have hk := contrEquiv1_symm_val D 512 rfl rfl s
  have el : D.lhsIdx (ix2 k t) ((contrEquiv1 D 512 rfl rfl).symm s) = ix2 k s := funext fun a => Fin.ext (by
    match a with
    | ⟨0, _⟩ => exact lhs_row _ _
    | ⟨1, _⟩ => exact (lhs_tap _ _).trans hk)
  have er : D.rhsIdx (ix2 k t) ((contrEquiv1 D 512 rfl rfl).symm s) = ix2 t s := funext fun a => Fin.ext (by
    match a with
    | ⟨0, _⟩ => exact rhs_row _ _
    | ⟨1, _⟩ => exact (rhs_tap _ _).trans hk)
  rw [el, er]

end Cert.KernelIdeal.Tap

end
-- ==== Proof.LibChunkSum.lean ====
/-
  A finite sum over `N = n * m` consecutive indices, cut into `n` chunks of `m`: the sum of the chunk sums is the
  whole sum. Index `c * m + k` of the whole range is entry `k` of chunk `c`. Only commutativity and associativity
  of the addition are used, so the law holds in every commutative monoid — on the extended reals in particular,
  where nothing has to be finite.
-/
import Mathlib.Algebra.BigOperators.Fin
import Mathlib.Logic.Equiv.Fin.Basic
import Mathlib.Tactic.Ring
import Mathlib.Tactic.Linarith

namespace ChunkSum

theorem at_lt {n m N : ℕ} (h : n * m = N) (c : Fin n) (k : Fin m) : c.val * m + k.val < N := by
  have hc := c.isLt
  have hk := k.isLt
  subst h
  calc c.val * m + k.val < c.val * m + m := by omega
    _ = (c.val + 1) * m := by ring
    _ ≤ n * m := Nat.mul_le_mul_right m (by omega)

/-- Entry `k` of chunk `c`, as an index of the whole range: `c * m + k`. -/
def at_ {n m N : ℕ} (h : n * m = N) (c : Fin n) (k : Fin m) : Fin N := ⟨c.val * m + k.val, at_lt h c k⟩

@[simp] theorem at_val {n m N : ℕ} (h : n * m = N) (c : Fin n) (k : Fin m) : (at_ h c k).val = c.val * m + k.val := rfl

/-- The sum of the `n` chunk sums is the sum over all `N = n * m` indices. -/
theorem sum_chunks {M : Type*} [AddCommMonoid M] {n m N : ℕ} (h : n * m = N) (f : Fin N → M) :
    ∑ c : Fin n, ∑ k : Fin m, f (at_ h c k) = ∑ j : Fin N, f j := by
  subst h
  rw [← Equiv.sum_comp finProdFinEquiv f, Fintype.sum_prod_type]
  refine Finset.sum_congr rfl fun c _ => Finset.sum_congr rfl fun k _ => congrArg f (Fin.ext ?_)
  simp only [at_val, finProdFinEquiv, Equiv.coe_fn_mk]
  ring

/-- Eight terms added one after the other onto a zero, from the left, are their sum. -/
theorem fold8 {M : Type*} [AddCommMonoid M] (g : Fin 8 → M) :
    0 + g 0 + g 1 + g 2 + g 3 + g 4 + g 5 + g 6 + g 7 = ∑ c : Fin 8, g c := by
  rw [Fin.sum_univ_eight, zero_add]

/-- A contraction over `N = 8 * m` indices accumulated chunk by chunk onto a zero is the whole contraction. -/
theorem fold8_chunks {M : Type*} [AddCommMonoid M] {m N : ℕ} (h : 8 * m = N) (f : Fin N → M) :
    0 + (∑ k : Fin m, f (at_ h 0 k)) + (∑ k : Fin m, f (at_ h 1 k)) + (∑ k : Fin m, f (at_ h 2 k))
      + (∑ k : Fin m, f (at_ h 3 k)) + (∑ k : Fin m, f (at_ h 4 k)) + (∑ k : Fin m, f (at_ h 5 k))
      + (∑ k : Fin m, f (at_ h 6 k)) + (∑ k : Fin m, f (at_ h 7 k)) = ∑ j : Fin N, f j := by
  rw [fold8 (fun c => ∑ k : Fin m, f (at_ h c k)), sum_chunks h f]

end ChunkSum
-- ==== Proof.KPayload.lean ====
/-
  What one grid point stores, read at an index.

  At a grid point the body holds one [1, 516, 512] block `x0` of signal chunks (chunk r, sample s) and a whole
  [1025, 2048] weight matrix `xw`. For i = 0..3 it multiplies the weight columns 512·i .. 512·i+511 by the chunk rows
  i .. i+512, and adds the four products onto a zero, left to right. Tap n = 512·i + s of frame t is sample s of chunk
  t + i, so entry (k, t) of what it stores is the one sum over all 2048 taps n of
  `xw[k, n] · x0[0, t + n / 512, n % 512]`: four chunk sums of 512 regrouped into one sum of 2048, which needs only
  that addition of extended reals is commutative and associative.
-/
import proofs.«165307_j76450417869070_1_alg».proof.Proof.Gen.KernelIdeal.Frame
import proofs.«165307_j76450417869070_1_alg».proof.Proof.KTap
import proofs.«165307_j76450417869070_1_alg».proof.Proof.LibChunkSum
import Idealize.ShloMosaic.Lib.Pipeline.Value
import Idealize.ShloMosaic.Lib.ValueLayout

noncomputable section

namespace Cert.KernelIdeal.Payload

open Cert.KernelIdeal Cert.KernelIdeal.Gen Idealize.ShloMosaic Idealize.ShloMosaic.ValueIdx

theorem zero3 : (![0, 0, 0] : Fin 3 → Nat) = fun _ => 0 := funext fun a => by fin_cases a <;> rfl

/-- Rows r .. r+512 of the chunk block, viewed [513, 512], at (t, s): chunk r + t, sample s. -/
theorem chunkRows_apply (x0 : Vec Ideal S1x516x512 .bf16) (r : Nat) (hr : r ≤ 3)
    (inb : ∀ a, (![0, r, 0] : Fin 3 → Nat) a + S1x513x512.size a ≤ S1x516x512.size a) (t : Fin 513) (s : Fin 512) :
    shapeCast S513x512 (View.ld x0 (Rect.unit (s := S1x516x512) ![0, r, 0] S1x513x512.size inb)) shapeCasts_S1x513x512_S513x512 (ix2 t s)
      = x0 (ix3 (0 : Fin 1) (⟨r + t.val, by omega⟩ : Fin 516) s) := by
  rw [shapeCast_1ab_ab_apply]
  show x0 ((Rect.unit (s := S1x516x512) ![0, r, 0] S1x513x512.size inb).emb (ix3 (0 : Fin 1) t s)) = _
  refine congrArg x0 (funext fun a => Fin.ext ?_)
  match a with
  | ⟨0, _⟩ => rfl
  | ⟨1, _⟩ => show r + 1 * t.val = r + t.val; omega
  | ⟨2, _⟩ => show 0 + 1 * s.val = s.val; omega

/-- Columns o .. o+511 of the weight matrix, at (k, s): row k, column o + s. -/
theorem weightCols_apply (xw : Vec Ideal S1025x2048 .bf16) (o : Nat) (ho : o + 512 ≤ 2048)
    (inb : ∀ a, (![0, o] : Fin 2 → Nat) a + S1025x512.size a ≤ S1025x2048.size a) (k : Fin 1025) (s : Fin 512) :
    shapeCast S1025x512 (View.ld xw (Rect.unit (s := S1025x2048) ![0, o] S1025x512.size inb)) shapeCasts_S1025x512_S1025x512 (ix2 k s)
      = xw (ix2 k (⟨o + s.val, by omega⟩ : Fin 2048)) := by
  refine (shapeCast_apply (s := S1025x512) (t := S1025x512)
    (View.ld xw (Rect.unit (s := S1025x2048) ![0, o] S1025x512.size inb)) shapeCasts_S1025x512_S1025x512 (ix2 k s) (ix2 k s) rfl).trans ?_
  show xw ((Rect.unit (s := S1025x2048) ![0, o] S1025x512.size inb).emb (ix2 k s)) = _
  refine congrArg xw (funext fun a => Fin.ext ?_)
  match a with
  | ⟨0, _⟩ => show 0 + 1 * k.val = k.val; omega
  | ⟨1, _⟩ => show o + 1 * s.val = o + s.val; omega

/-- One of the four block products: weight columns from `o`, chunk rows from `r`, into a zero accumulator. -/
def blockProd (xw : Vec Ideal S1025x2048 .bf16) (x0 : Vec Ideal S1x516x512 .bf16) (o r : Nat)
    (inbw : ∀ a, (![0, o] : Fin 2 → Nat) a + S1025x512.size a ≤ S1025x2048.size a)
    (inbx : ∀ a, (![0, r, 0] : Fin 3 → Nat) a + S1x513x512.size a ≤ S1x516x512.size a) : FVec Ideal S1025x513 .f32 :=
  matmul Tap.D none
    (shapeCast S1025x512 (View.ld xw (Rect.unit (s := S1025x2048) ![0, o] S1025x512.size inbw)) shapeCasts_S1025x512_S1025x512 : FVec Ideal S1025x512 .bf16)
    (shapeCast S513x512 (View.ld x0 (Rect.unit (s := S1x516x512) ![0, r, 0] S1x513x512.size inbx)) shapeCasts_S1x513x512_S513x512 : FVec Ideal S513x512 .bf16)
    (constant S1025x513 .f32 0x00000000#32)

/-- Its entry (k, t): the sum over the 512 samples of chunk r + t against the weight columns from o. -/
theorem blockProd_apply (xw : Vec Ideal S1025x2048 .bf16) (x0 : Vec Ideal S1x516x512 .bf16) (o r : Nat) (ho : o + 512 ≤ 2048) (hr : r ≤ 3)
    (inbw : ∀ a, (![0, o] : Fin 2 → Nat) a + S1025x512.size a ≤ S1025x2048.size a)
    (inbx : ∀ a, (![0, r, 0] : Fin 3 → Nat) a + S1x513x512.size a ≤ S1x516x512.size a) (k : Fin 1025) (t : Fin 513) :
    blockProd xw x0 o r inbw inbx (ix2 k t)
      = ∑ s : Fin 512, xw (ix2 k (⟨o + s.val, by omega⟩ : Fin 2048)) * x0 (ix3 (0 : Fin 1) (⟨r + t.val, by omega⟩ : Fin 516) s) := by
  unfold blockProd
  rw [Tap.matmul_zero_apply]
  refine Finset.sum_congr rfl fun s _ => ?_
  rw [weightCols_apply xw o ho inbw k s, chunkRows_apply x0 r hr inbx t s]

/-- The four products added onto a zero, left to right, stored as a [1, 1025, 513] block. -/
def foldBlock (xw : Vec Ideal S1025x2048 .bf16) (x0 : Vec Ideal S1x516x512 .bf16) : FVec Ideal S1x1025x513 .f32 :=
  shapeCast S1x1025x513
    (addf (addf (addf (addf (broadcast S1025x513 (Scalar.ofBits (F := Ideal) .f32 0x00000000#32))
      (blockProd xw x0 0 0 inb_S1025x2048_S1025x512_0_0 inb_S1x516x512_S1x513x512_0_0_0))
      (blockProd xw x0 512 1 inb_S1025x2048_S1025x512_0_512 inb_S1x516x512_S1x513x512_0_1_0))
      (blockProd xw x0 1024 2 inb_S1025x2048_S1025x512_0_1024 inb_S1x516x512_S1x513x512_0_2_0))
      (blockProd xw x0 1536 3 inb_S1025x2048_S1025x512_0_1536 inb_S1x516x512_S1x513x512_0_3_0))
    shapeCasts_S1025x513_S1x1025x513

/-- Tap n of frame t inside the chunk block: chunk t + n / 512, sample n % 512. -/
def tapTerm (xw : Vec Ideal S1025x2048 .bf16) (x0 : Vec Ideal S1x516x512 .bf16) (k : Fin 1025) (t : Fin 513) (n : Fin 2048) : EReal :=
  xw (ix2 k n) * x0 (ix3 (0 : Fin 1) (⟨t.val + n.val / 512, by omega⟩ : Fin 516) (⟨n.val % 512, Nat.mod_lt _ (by decide)⟩ : Fin 512))

/-- Tap 512·c + s is sample s of chunk c + t. -/
theorem tapTerm_chunk (xw : Vec Ideal S1025x2048 .bf16) (x0 : Vec Ideal S1x516x512 .bf16) (k : Fin 1025) (t : Fin 513)
    (c : Nat) (hc : c ≤ 3) (s : Fin 512) (hn : c * 512 + s.val < 2048) (hr : c + t.val < 516) :
    tapTerm xw x0 k t ⟨c * 512 + s.val, hn⟩ = xw (ix2 k (⟨c * 512 + s.val, hn⟩ : Fin 2048)) * x0 (ix3 (0 : Fin 1) (⟨c + t.val, hr⟩ : Fin 516) s) := by
  unfold tapTerm
  have hs := s.isLt
  have h1 : (⟨t.val + (c * 512 + s.val) / 512, by omega⟩ : Fin 516) = ⟨c + t.val, hr⟩ :=
    Fin.ext (by show t.val + (c * 512 + s.val) / 512 = c + t.val; omega)
  have h2 : (⟨(c * 512 + s.val) % 512, Nat.mod_lt _ (by decide)⟩ : Fin 512) = s :=
    Fin.ext (by show (c * 512 + s.val) % 512 = s.val; omega)
  show xw _ * x0 (ix3 (0 : Fin 1) (⟨t.val + (c * 512 + s.val) / 512, _⟩ : Fin 516) (⟨(c * 512 + s.val) % 512, _⟩ : Fin 512)) = _
  rw [h1, h2]

/-- Block product c of 4 at (k, t) is the sum of the taps 512·c .. 512·c + 511 of frame t. -/
theorem blockProd_chunk (xw : Vec Ideal S1025x2048 .bf16) (x0 : Vec Ideal S1x516x512 .bf16) (c : Fin 4)
    (inbw : ∀ a, (![0, c.val * 512] : Fin 2 → Nat) a + S1025x512.size a ≤ S1025x2048.size a)
    (inbx : ∀ a, (![0, c.val, 0] : Fin 3 → Nat) a + S1x513x512.size a ≤ S1x516x512.size a) (k : Fin 1025) (t : Fin 513) :
    blockProd xw x0 (c.val * 512) c.val inbw inbx (ix2 k t)
      = ∑ s : Fin 512, tapTerm xw x0 k t (ChunkSum.at_ (show 4 * 512 = 2048 by norm_num) c s) := by
  have hc := c.isLt
  rw [blockProd_apply xw x0 (c.val * 512) c.val (by omega) (by omega) inbw inbx k t]
  refine Finset.sum_congr rfl fun s _ => ?_
  have hs := s.isLt
  exact (tapTerm_chunk xw x0 k t c.val (by omega) s (by omega) (by omega)).symm

/-- Entry (k, t) of the folded block is the sum over all 2048 taps. -/
theorem foldBlock_apply (xw : Vec Ideal S1025x2048 .bf16) (x0 : Vec Ideal S1x516x512 .bf16) (u : Fin 1) (k : Fin 1025) (t : Fin 513) :
    foldBlock xw x0 (ix3 u k t) = ∑ n : Fin 2048, tapTerm xw x0 k t n := by
  unfold foldBlock
  rw [shapeCast_ab_1ab_apply]
  simp only [addf_apply, broadcast_apply]
  have h0 : Scalar.ofBits (F := Ideal) .f32 0x00000000#32 = (0 : EReal) := Ideal.ofBits_zero_f32
  rw [h0, ← ChunkSum.sum_chunks (show 4 * 512 = 2048 by norm_num) (tapTerm xw x0 k t), Fin.sum_univ_four, zero_add]
  refine congrArg₂ (· + ·) (congrArg₂ (· + ·) (congrArg₂ (· + ·) ?_ ?_) ?_) ?_
  · exact blockProd_chunk xw x0 0 _ _ k t
  · exact blockProd_chunk xw x0 1 _ _ k t
  · exact blockProd_chunk xw x0 2 _ _ k t
  · exact blockProd_chunk xw x0 3 _ _ k t

/-- What the body stores in the real part's block is the folded block of the first weight matrix. -/
theorem out_real_eq (x0 : Vec Ideal S1x516x512 .bf16) (x1 x2 : Vec Ideal S1025x2048 .bf16) : out0_3 x0 x1 x2 = foldBlock x1 x0 := by
  unfold out0_3
  rw [View.canon_unit_zero zero3]
  rfl

/-- What it stores in the imaginary part's block is the folded block of the second weight matrix. -/
theorem out_imag_eq (x0 : Vec Ideal S1x516x512 .bf16) (x1 x2 : Vec Ideal S1025x2048 .bf16) : out0_4 x0 x1 x2 = foldBlock x2 x0 := by
  unfold out0_4
  rw [View.canon_unit_zero zero3]
  rfl

end Cert.KernelIdeal.Payload

end
-- ==== Proof.KInputs.lean ====
/-
  What the kernel's three input arrays hold when the grid starts.

  Before the grid the program reflect-pads the signal (`Cert.Stft.padded`), changes its float format (the identity at
  the ideal values) and views the padded [16, 2, 264192] array as [32, 516, 512]: pair (b, c) becomes row 2·b + c, and
  position p of the padded signal becomes chunk p / 512, sample p % 512. The two weight matrices only change format.
-/
import proofs.«165307_j76450417869070_1_alg».proof.Proof.Gen.KernelIdeal.Frame
import proofs.«165307_j76450417869070_1_alg».proof.Proof.Spec
import Idealize.ShloMosaic.Lib.StableHlo.Run
import Idealize.ShloMosaic.Lib.Pipeline.Value

noncomputable section

namespace Cert.KernelIdeal.Inputs

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The chunk array: the padded signal viewed [32, 516, 512]. -/
theorem chunks_eq (c : Dev nD) :
    (V m c main_v2 : S32x516x512.Idx → EReal)
      = shapeCast S32x516x512 (Cert.Stft.padded (m ((c : Thread nD τ).loc main_arg0))) shapeCasts_S16x2x264192_S32x516x512 := by
  dsimp only [Gen.V, Gen.V0]
  simp only [Gen.hostOps0, Gen.hostOps0_1, Gen.hostOps0_2, List.flatten_cons, List.flatten_nil, List.append_nil, List.cons_append,
    List.nil_append]
  after_results
  rfl

/-- The first weight matrix, as launched. -/
theorem wreal_eq (c : Dev nD) : (V m c main_v3 : S1025x2048.Idx → EReal) = m ((c : Thread nD τ).loc main_arg1) := by
  dsimp only [Gen.V, Gen.V0]
  simp only [Gen.hostOps0, Gen.hostOps0_1, Gen.hostOps0_2, List.flatten_cons, List.flatten_nil, List.append_nil, List.cons_append,
    List.nil_append]
  after_results
  rfl

/-- The second weight matrix, as launched. -/
theorem wimag_eq (c : Dev nD) : (V m c main_v4 : S1025x2048.Idx → EReal) = m ((c : Thread nD τ).loc main_arg2) := by
  dsimp only [Gen.V, Gen.V0]
  simp only [Gen.hostOps0, Gen.hostOps0_1, Gen.hostOps0_2, List.flatten_cons, List.flatten_nil, List.append_nil, List.cons_append,
    List.nil_append]
  after_results
  rfl

/-- The chunk array at (g, r, s) with g = 2·b + c: the padded signal of (b, c) at position 512·r + s. -/
theorem chunks_apply (xp : FVec Ideal Cert.Stft.SP .f32) (b : Fin 16) (ch : Fin 2) (g : Fin 32) (hg : g.val = b.val * 2 + ch.val)
    (r : Fin 516) (s : Fin 512) :
    shapeCast S32x516x512 xp shapeCasts_S16x2x264192_S32x516x512 (ix3 g r s)
      = xp (ix3 b ch (⟨r.val * 512 + s.val, by omega⟩ : Fin 264192)) :=
  shapeCast_apply xp _ _ _ (by
    rw [Shape.rowMajor_val_three, Shape.rowMajor_val_three]
    show (b.val * 2 + ch.val) * 264192 + (r.val * 512 + s.val) = (g.val * 516 + r.val) * 512 + s.val
    rw [hg]; ring)

end Cert.KernelIdeal.Inputs

end
-- ==== Proof.KBlocks.lean ====
/-
  From what each grid point writes back to the two whole result arrays.

  Grid point g = 2·b + c (of 32) reads block g of the chunk array — the padded signal of (b, c) cut into 516 chunks of
  512 — and both whole weight matrices, and writes block g of each [32, 1025, 513] result. Tap n of frame t reads
  chunk t + n / 512, sample n % 512, which is position 512·(t + n / 512) + n % 512 = 512·t + n of the padded signal:
  so entry (k, t) of block g is `tapSum` of the padded signal of (b, c) against row k. The 32 blocks tile the result
  along its first axis, so the result array is that function of (g, k, t) everywhere.
-/
import proofs.«165307_j76450417869070_1_alg».proof.Proof.Gen.KernelIdeal.Frame
import proofs.«165307_j76450417869070_1_alg».proof.Proof.KPayload
import proofs.«165307_j76450417869070_1_alg».proof.Proof.KInputs
import proofs.«165307_j76450417869070_1_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The printed index maps over the grid: the chunk window and both result windows sit at block (g, 0, 0) at point g,
    the weight windows at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem point_lt (t : Fin cfg0.N) : t.val < 32 := by
  have h : cfg0.N = 32 := N_0
  have := t.isLt
  omega

/-- The chunk block at point g is row g of the chunk array. -/
theorem chunkBlock_apply (c : Dev nD) (t : Fin cfg0.N) (u : Fin 1) (r : Fin 516) (s : Fin 512) :
    (iblk m c 0 t : Vec Ideal S1x516x512 .bf16) (ix3 u r s)
      = (V m c main_v2 : S32x516x512.Idx → EReal) (ix3 (⟨t.val, point_lt t⟩ : Fin 32) r s) := by
  obtain ⟨e0, e1, e2, -⟩ := idx_facts t
  unfold iblk
  rw [View.read_apply]
  show V m c main_v2 _ = V m c main_v2 _
  congr 1
  funext a
  apply Fin.ext
  match a with
  | ⟨0, _⟩ => show win0_0.index t 0 * 1 + 1 * u.val = t.val; rw [e0]; omega
  | ⟨1, _⟩ => show win0_0.index t 1 * 516 + 1 * r.val = r.val; rw [e1]; omega
  | ⟨2, _⟩ => show win0_0.index t 2 * 512 + 1 * s.val = s.val; rw [e2]; omega

/-- The first weight window's block is the whole first weight array at every point. -/
theorem wrealBlock_apply (c : Dev nD) (t : Fin cfg0.N) (k : Fin 1025) (n : Fin 2048) :
    (iblk m c 1 t : Vec Ideal S1025x2048 .bf16) (ix2 k n) = (V m c main_v3 : S1025x2048.Idx → EReal) (ix2 k n) := by
  obtain ⟨-, -, -, e0, e1, -⟩ := idx_facts t
  unfold iblk
  rw [View.read_apply]
  show V m c main_v3 _ = V m c main_v3 _
  congr 1
  funext a
  apply Fin.ext
  match a with
  | ⟨0, _⟩ => show win0_1.index t 0 * 1025 + 1 * k.val = k.val; rw [e0]; omega
  | ⟨1, _⟩ => show win0_1.index t 1 * 2048 + 1 * n.val = n.val; rw [e1]; omega

/-- The second weight window's block is the whole second weight array at every point. -/
theorem wimagBlock_apply (c : Dev nD) (t : Fin cfg0.N) (k : Fin 1025) (n : Fin 2048) :
    (iblk m c 2 t : Vec Ideal S1025x2048 .bf16) (ix2 k n) = (V m c main_v4 : S1025x2048.Idx → EReal) (ix2 k n) := by
  obtain ⟨-, -, -, -, -, e0, e1, -⟩ := idx_facts t
  unfold iblk
  rw [View.read_apply]
  show V m c main_v4 _ = V m c main_v4 _
  congr 1
  funext a
  apply Fin.ext
  match a with
  | ⟨0, _⟩ => show win0_2.index t 0 * 1025 + 1 * k.val = k.val; rw [e0]; omega
  | ⟨1, _⟩ => show win0_2.index t 1 * 2048 + 1 * n.val = n.val; rw [e1]; omega

/-- A [32, 1025, 513] result as one function of the padded signal and a weight matrix: row g = 2·b + c holds the
    projections of (b, c). -/
def pairArr (xp : FVec Ideal Cert.Stft.SP .f32) (w : FVec Ideal Cert.Stft.SW .f32) : FVec Ideal S32x1025x513 .f32 := fun i =>
  Cert.Stft.tapSum xp w ⟨(i 0).val / 2, by have : (i 0).val < 32 := (i 0).isLt; omega⟩ ⟨(i 0).val % 2, Nat.mod_lt _ (by decide)⟩
    ⟨(i 1).val, (i 1).isLt⟩ ⟨(i 2).val, (i 2).isLt⟩

/-- One tap: chunk t + n / 512, sample n % 512 of row g of the chunk array is position 512·t + n of the padded signal. -/
theorem tap_eq (xp : FVec Ideal Cert.Stft.SP .f32) (g : Fin 32) (tt : Fin 513) (n : Fin 2048) :
    shapeCast S32x516x512 xp shapeCasts_S16x2x264192_S32x516x512
        (ix3 g (⟨tt.val + n.val / 512, by omega⟩ : Fin 516) (⟨n.val % 512, Nat.mod_lt _ (by decide)⟩ : Fin 512))
      = xp (ix3 (⟨g.val / 2, by omega⟩ : Fin 16) (⟨g.val % 2, Nat.mod_lt _ (by decide)⟩ : Fin 2) (Cert.Stft.pos tt n)) := by
  rw [Inputs.chunks_apply xp ⟨g.val / 2, by omega⟩ ⟨g.val % 2, Nat.mod_lt _ (by decide)⟩ g (by show g.val = g.val / 2 * 2 + g.val % 2; omega)]
  refine congrArg xp (congrArg (ix3 _ _) (Fin.ext ?_))
  show (tt.val + n.val / 512) * 512 + n.val % 512 = 512 * tt.val + n.val
  omega

/-- Entry y of what point g stores in a result block, for the weight block `wb` known to be the weight array `w`. -/
theorem point_eq (c : Dev nD) (t : Fin cfg0.N) (wb : Vec Ideal S1025x2048 .bf16) (w : FVec Ideal Cert.Stft.SW .f32)
    (hw : ∀ (k : Fin 1025) (n : Fin 2048), wb (ix2 k n) = w (ix2 k n))
    (y : S1x1025x513.Idx) (i : S32x1025x513.Idx) (h0 : (i 0).val = t.val) (h1 : (i 1).val = (y 1).val) (h2 : (i 2).val = (y 2).val) :
    Payload.foldBlock wb (iblk m c 0 t) y = pairArr (Cert.Stft.padded (m ((c : Thread nD τ).loc main_arg0))) w i := by
  obtain ⟨u, k, tt, rfl⟩ : ∃ (u : Fin 1) (k : Fin 1025) (tt : Fin 513), y = ix3 u k tt := ⟨y 0, y 1, y 2, eq_ix3 y⟩
  refine (Payload.foldBlock_apply wb (iblk m c 0 t) u k tt).trans ?_
  unfold pairArr Cert.Stft.tapSum
  have hk : (⟨(i 1).val, (i 1).isLt⟩ : Fin 1025) = k := Fin.ext h1
  have ht : (⟨(i 2).val, (i 2).isLt⟩ : Fin 513) = tt := Fin.ext h2
  rw [hk, ht]
  refine Finset.sum_congr rfl fun n _ => ?_
  unfold Payload.tapTerm
  rw [hw k n, chunkBlock_apply m c t, Inputs.chunks_eq m c, tap_eq _ ⟨t.val, point_lt t⟩ tt n]
  have hb : (⟨t.val / 2, by have := point_lt t; omega⟩ : Fin 16) = ⟨(i 0).val / 2, by have : (i 0).val < 32 := (i 0).isLt; omega⟩ :=
    Fin.ext (by show t.val / 2 = (i 0).val / 2; rw [h0])
  have hc : (⟨t.val % 2, Nat.mod_lt _ (by decide)⟩ : Fin 2) = ⟨(i 0).val % 2, Nat.mod_lt _ (by decide)⟩ :=
    Fin.ext (by show t.val % 2 = (i 0).val % 2; rw [h0])
  rw [hb, hc]

/-- An index of a result array is in point g's block iff each coordinate is in the block's range. -/
theorem mem_blk3 (t : Fin cfg0.N) (i : S32x1025x513.Idx) :
    i ∈ ((cfg0.win 3).blk t).view.set ↔ ∀ a : Fin 3, win0_3.index t a * S1x1025x513.size a ≤ (i a).val ∧ (i a).val < win0_3.index t a * S1x1025x513.size a + S1x1025x513.size a := by
  show i ∈ ((View.whole main_v5_0).slice (win0_3.rect t)).set ↔ _
  rw [View.set_slice_whole, Rect.mem_set_unit]
  exact Iff.rfl

theorem mem_blk4 (t : Fin cfg0.N) (i : S32x1025x513.Idx) :
    i ∈ ((cfg0.win 4).blk t).view.set ↔ ∀ a : Fin 3, win0_4.index t a * S1x1025x513.size a ≤ (i a).val ∧ (i a).val < win0_4.index t a * S1x1025x513.size a + S1x1025x513.size a := by
  show i ∈ ((View.whole main_v5_1).slice (win0_4.rect t)).set ↔ _
  rw [View.set_slice_whole, Rect.mem_set_unit]
  exact Iff.rfl

/-- What point g writes back to the real part is block g of `pairArr` of the padded signal and the first weights. -/
theorem flushed3_eq (c : Dev nD) (t : Fin cfg0.N) :
    (dats m 0 c).flushed 3 t = ((cfg0.win 3).blk t).view.read (Elt Ideal)
      (pairArr (Cert.Stft.padded (m ((c : Thread nD τ).loc main_arg0))) (m ((c : Thread nD τ).loc main_arg1))) := by
  obtain ⟨-, -, -, -, -, -, -, e0, e1, e2, -⟩ := idx_facts t
  show (cfg0.win 3).cut (grid0.coords t) ((dats m 0 c).after 3 t) = _
  rw [after0_3, Payload.out_real_eq (iblk m c 0 t) (iblk m c 1 t) (iblk m c 2 t)]
  funext j
  rw [View.read_apply]
  refine point_eq m c t (iblk m c 1 t) _ (fun k n => (wrealBlock_apply m c t k n).trans (congrFun (Inputs.wreal_eq m c) _)) j _ ?_ ?_ ?_
  · show win0_3.index t 0 * 1 + 1 * (j 0).val = t.val
    have : (j 0).val < 1 := (j 0).isLt
    rw [e0]; omega
  · show win0_3.index t 1 * 1025 + 1 * (j 1).val = (j 1).val
    rw [e1]; omega
  · show win0_3.index t 2 * 513 + 1 * (j 2).val = (j 2).val
    rw [e2]; omega

/-- What point g writes back to the imaginary part is block g of `pairArr` of the padded signal and the second weights. -/
theorem flushed4_eq (c : Dev nD) (t : Fin cfg0.N) :
    (dats m 0 c).flushed 4 t = ((cfg0.win 4).blk t).view.read (Elt Ideal)
      (pairArr (Cert.Stft.padded (m ((c : Thread nD τ).loc main_arg0))) (m ((c : Thread nD τ).loc main_arg2))) := by
  obtain ⟨-, -, -, -, -, -, -, -, -, -, e0, e1, e2⟩ := idx_facts t
  show (cfg0.win 4).cut (grid0.coords t) ((dats m 0 c).after 4 t) = _
  rw [after0_4, Payload.out_imag_eq (iblk m c 0 t) (iblk m c 1 t) (iblk m c 2 t)]
  funext j
  rw [View.read_apply]
  refine point_eq m c t (iblk m c 2 t) _ (fun k n => (wimagBlock_apply m c t k n).trans (congrFun (Inputs.wimag_eq m c) _)) j _ ?_ ?_ ?_
  · show win0_4.index t 0 * 1 + 1 * (j 0).val = t.val
    have : (j 0).val < 1 := (j 0).isLt
    rw [e0]; omega
  · show win0_4.index t 1 * 1025 + 1 * (j 1).val = (j 1).val
    rw [e1]; omega
  · show win0_4.index t 2 * 513 + 1 * (j 2).val = (j 2).val
    rw [e2]; omega

/-- Every index (g, k, t) of a result array is in point g's block. -/
theorem cover3 (i : S32x1025x513.Idx) : ∃ t : Fin cfg0.N, (cfg0.win 3).flush t = true ∧ i ∈ ((cfg0.win 3).blk t).view.set := by
  have hi0 : (i 0).val < 32 := (i 0).isLt
  have hi1 : (i 1).val < 1025 := (i 1).isLt
  have hi2 : (i 2).val < 513 := (i 2).isLt
  have hN : cfg0.N = 32 := N_0
  refine ⟨⟨(i 0).val, by omega⟩, flush0_3 _, ?_⟩
  obtain ⟨-, -, -, -, -, -, -, e0, e1, e2, -⟩ := idx_facts ⟨(i 0).val, by omega⟩
  rw [mem_blk3]
  intro a
  match a with
  | ⟨0, _⟩ => show win0_3.index _ 0 * 1 ≤ (i 0).val ∧ (i 0).val < win0_3.index _ 0 * 1 + 1; rw [e0]; show (i 0).val * 1 ≤ (i 0).val ∧ (i 0).val < (i 0).val * 1 + 1; omega
  | ⟨1, _⟩ => show win0_3.index _ 1 * 1025 ≤ (i 1).val ∧ (i 1).val < win0_3.index _ 1 * 1025 + 1025; rw [e1]; omega
  | ⟨2, _⟩ => show win0_3.index _ 2 * 513 ≤ (i 2).val ∧ (i 2).val < win0_3.index _ 2 * 513 + 513; rw [e2]; omega

theorem cover4 (i : S32x1025x513.Idx) : ∃ t : Fin cfg0.N, (cfg0.win 4).flush t = true ∧ i ∈ ((cfg0.win 4).blk t).view.set := by
  have hi0 : (i 0).val < 32 := (i 0).isLt
  have hi1 : (i 1).val < 1025 := (i 1).isLt
  have hi2 : (i 2).val < 513 := (i 2).isLt
  have hN : cfg0.N = 32 := N_0
  refine ⟨⟨(i 0).val, by omega⟩, flush0_4 _, ?_⟩
  obtain ⟨-, -, -, -, -, -, -, -, -, -, e0, e1, e2⟩ := idx_facts ⟨(i 0).val, by omega⟩
  rw [mem_blk4]
  intro a
  match a with
  | ⟨0, _⟩ => show win0_4.index _ 0 * 1 ≤ (i 0).val ∧ (i 0).val < win0_4.index _ 0 * 1 + 1; rw [e0]; show (i 0).val * 1 ≤ (i 0).val ∧ (i 0).val < (i 0).val * 1 + 1; omega
  | ⟨1, _⟩ => show win0_4.index _ 1 * 1025 ≤ (i 1).val ∧ (i 1).val < win0_4.index _ 1 * 1025 + 1025; rw [e1]; omega
  | ⟨2, _⟩ => show win0_4.index _ 2 * 513 ≤ (i 2).val ∧ (i 2).val < win0_4.index _ 2 * 513 + 513; rw [e2]; omega

/-- The real part's [32, 1025, 513] array after the grid. -/
theorem final3 (c : Dev nD) : (dats m 0 c).arrAt 3 cfg0.N
    = pairArr (Cert.Stft.padded (m ((c : Thread nD τ).loc main_arg0))) (m ((c : Thread nD τ).loc main_arg1)) :=
  (dats m 0 c).arrAt_eq_of_cover 3 _ (fun t _ => flushed3_eq m c t) cover3

/-- The imaginary part's [32, 1025, 513] array after the grid. -/
theorem final4 (c : Dev nD) : (dats m 0 c).arrAt 4 cfg0.N
    = pairArr (Cert.Stft.padded (m ((c : Thread nD τ).loc main_arg0))) (m ((c : Thread nD τ).loc main_arg2)) :=
  (dats m 0 c).arrAt_eq_of_cover 4 _ (fun t _ => flushed4_eq m c t) cover4

end Cert.KernelIdeal.Blocks

end
-- ==== Proof.LibHeadReshape.lean ====
/-
  Two leading axes flattened into one, and back.

  A row-major array of shape [a, b, c, d] reshaped to [n, c, d] with n = a · b keeps every trailing coordinate and
  sends the leading pair (p, q) to the single coordinate p · b + q; the reshape back reads the same position. A
  [1, 1, a, b] array reshaped to [a, b] drops its two unit axes. Each is read at an index given by its coordinates,
  in any element type.
-/
import Idealize.ShloMosaic.Lib.Pipeline.Value
import Idealize.ShloMosaic.Lib.ValueIdx

namespace Idealize.ShloMosaic.HeadReshape

open Idealize.ShloMosaic Idealize.ShloMosaic.ValueIdx

variable {α : Type}

/-- `[a, b, c, d]` cast to `[n, c, d]` reads, at `(g, i, j)` with `g = p · b + q`, the operand at `(p, q, i, j)`. -/
theorem shapeCast_abcd_ncd_apply {a b n c d : ℕ} (x : (⟨4, ![a, b, c, d]⟩ : Shape).Idx → α)
    (h : (⟨4, ![a, b, c, d]⟩ : Shape).ShapeCasts ⟨3, ![n, c, d]⟩) (p : Fin a) (q : Fin b) (g : Fin n)
    (hg : g.val = p.val * b + q.val) (i : Fin c) (j : Fin d) :
    shapeCast ⟨3, ![n, c, d]⟩ x h (ix3 g i j) = x (ix4 p q i j) :=
  shapeCast_apply x h _ _ (by
    rw [Shape.rowMajor_val_four, Shape.rowMajor_val_three]
    show ((p.val * b + q.val) * c + i.val) * d + j.val = (g.val * c + i.val) * d + j.val
    rw [hg])

/-- `[n, c, d]` cast to `[a, b, c, d]` reads, at `(p, q, i, j)`, the operand at `(g, i, j)` with `g = p · b + q`. -/
theorem shapeCast_ncd_abcd_apply {a b n c d : ℕ} (x : (⟨3, ![n, c, d]⟩ : Shape).Idx → α)
    (h : (⟨3, ![n, c, d]⟩ : Shape).ShapeCasts ⟨4, ![a, b, c, d]⟩) (p : Fin a) (q : Fin b) (g : Fin n)
    (hg : g.val = p.val * b + q.val) (i : Fin c) (j : Fin d) :
    shapeCast ⟨4, ![a, b, c, d]⟩ x h (ix4 p q i j) = x (ix3 g i j) :=
  shapeCast_apply x h _ _ (by
    rw [Shape.rowMajor_val_four, Shape.rowMajor_val_three]
    show (g.val * c + i.val) * d + j.val = ((p.val * b + q.val) * c + i.val) * d + j.val
    rw [hg])

/-- `[1, 1, a, b]` cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Idealize.ShloMosaic.HeadReshape
-- ==== Proof.KRun.lean ====
/-
  The kernel program's run, read.

  After the grid the program views each [32, 1025, 513] result as [16, 2, 1025, 513] (row g = 2·b + c becomes (b, c))
  and then as [16, 2050, 513] ((c, k) becomes row c·1025 + k). Both views keep the row-major position, so entry
  (b, c·1025 + k, t) of the final array is entry (2·b + c, k, t) of the grid's result: the projection of channel c of
  batch b on weight row k at frame t, which is `Cert.Stft.stft` of the padded signal.
-/
import proofs.«165307_j76450417869070_1_alg».proof.Proof.Gen.KernelIdeal.Frame
import proofs.«165307_j76450417869070_1_alg».proof.Proof.KBlocks
import proofs.«165307_j76450417869070_1_alg».proof.Proof.LibHeadReshape
import proofs.«165307_j76450417869070_1_alg».proof.Proof.Spec
import Idealize.ShloMosaic.Lib.StableHlo.Run
import Idealize.ShloMosaic.Lib.Pipeline.Value

noncomputable section

namespace Cert.KernelIdeal.Run

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

/-- `[16, 2, 1025, 513]` viewed `[16, 2050, 513]`: row c·1025 + k of batch b reads (b, c, k). -/
theorem shapeCast_rows_apply {α : Type} (x : S16x2x1025x513.Idx → α) (b : Fin 16) (c : Fin 2) (k : Fin 1025) (t : Fin 513)
    (row : Fin 2050) (hrow : row.val = c.val * 1025 + k.val) :
    shapeCast S16x2050x513 x shapeCasts_S16x2x1025x513_S16x2050x513 (ix3 b row t) = x (ix4 b c k t) :=
  shapeCast_apply x _ _ _ (by
    rw [Shape.rowMajor_val_four, Shape.rowMajor_val_three]
    show ((b.val * 2 + c.val) * 1025 + k.val) * 513 + t.val = (b.val * 2050 + row.val) * 513 + t.val
    rw [hrow]; ring)

/-- The grid's result at (g, k, t) with g = 2·b + c is the projection of (b, c) on row k at frame t. -/
theorem pairArr_apply (xp : FVec Ideal Cert.Stft.SP .f32) (w : FVec Ideal Cert.Stft.SW .f32) (b : Fin 16) (c : Fin 2) (g : Fin 32)
    (hg : g.val = b.val * 2 + c.val) (k : Fin 1025) (t : Fin 513) :
    Blocks.pairArr xp w (ix3 g k t) = Cert.Stft.tapSum xp w b c k t := by
  unfold Blocks.pairArr
  have hb : (⟨g.val / 2, by omega⟩ : Fin 16) = b := Fin.ext (by show g.val / 2 = b.val; omega)
  have hc : (⟨g.val % 2, Nat.mod_lt _ (by decide)⟩ : Fin 2) = c := Fin.ext (by show g.val % 2 = c.val; omega)
  show Cert.Stft.tapSum xp w ⟨g.val / 2, _⟩ ⟨g.val % 2, _⟩ k t = _
  rw [hb, hc]

theorem rowOf_lt (c : Fin 2) (k : Fin 1025) : c.val * 1025 + k.val < 2050 := by omega

/-- The grid's result viewed [16, 2, 1025, 513] and then [16, 2050, 513] is `stft`. -/
theorem tail_eq (xp : FVec Ideal Cert.Stft.SP .f32) (w : FVec Ideal Cert.Stft.SW .f32) :
    shapeCast S16x2050x513 (shapeCast S16x2x1025x513 (Blocks.pairArr xp w) shapeCasts_S32x1025x513_S16x2x1025x513)
      shapeCasts_S16x2x1025x513_S16x2050x513 = Cert.Stft.stft xp w := by
  funext j
  obtain ⟨b, row, t, rfl⟩ : ∃ (b : Fin 16) (row : Fin 2050) (t : Fin 513), j = ix3 b row t := ⟨j 0, j 1, j 2, eq_ix3 j⟩
  have hrow := row.isLt
  obtain ⟨c, k, hck⟩ : ∃ (c : Fin 2) (k : Fin 1025), row = ⟨c.val * 1025 + k.val, rowOf_lt c k⟩ :=
    ⟨⟨row.val / 1025, by omega⟩, ⟨row.val % 1025, Nat.mod_lt _ (by decide)⟩, Fin.ext (by show row.val = row.val / 1025 * 1025 + row.val % 1025; omega)⟩
  clear hrow
  subst hck
  rw [Cert.Stft.stft_apply, shapeCast_rows_apply _ b c k t _ rfl,
    HeadReshape.shapeCast_ncd_abcd_apply _ _ b c ⟨b.val * 2 + c.val, by omega⟩ rfl k t,
    pairArr_apply xp w b c _ rfl k t]

variable (m : (ℓ : Loc nD τ sig) → Buf (Elt Ideal) ℓ) (ρ : Dev nD → PrngReg)

/-- After the frame run, the real part's result is `stft` of the padded signal and the first weights. -/
theorem post_real (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v7)
      = Cert.Stft.stft (Cert.Stft.padded (m ((c : Thread nD τ).loc main_arg0))) (m ((c : Thread nD τ).loc main_arg1)) := by
  refine ((h c).2 main_v7 (Pipeline.mem_restRefs_of main_v7 (by decide) (by decide))).trans ?_
  unfold Pipeline.afterTail₀
  show StableHlo.after hostOps1 _ (Proc.devRef .tc main_v7) = _
  after_results
  rw [show Pipeline.withArrays spec0 c (V0 m c) (fun w => (dats m 0 c).arrAt w cfg0.N) (Proc.devRef .tc main_v5_0) = _ from
    (Pipeline.withArrays_arr spec0 launch0.win.arr_inj c _ _ 3).trans (Blocks.final3 m c)]
  exact tail_eq _ _

/-- After the frame run, the imaginary part's result is `stft` of the padded signal and the second weights. -/
theorem post_imag (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v9)
      = Cert.Stft.stft (Cert.Stft.padded (m ((c : Thread nD τ).loc main_arg0))) (m ((c : Thread nD τ).loc main_arg2)) := by
  refine ((h c).2 main_v9 (Pipeline.mem_restRefs_of main_v9 (by decide) (by decide))).trans ?_
  unfold Pipeline.afterTail₀
  show StableHlo.after hostOps1 _ (Proc.devRef .tc main_v9) = _
  after_results
  rw [show Pipeline.withArrays spec0 c (V0 m c) (fun w => (dats m 0 c).arrAt w cfg0.N) (Proc.devRef .tc main_v5_1) = _ from
    (Pipeline.withArrays_arr spec0 launch0.win.arr_inj c _ _ 4).trans (Blocks.final4 m c)]
  exact tail_eq _ _

/-- The kernel program's run: both results at `stft` of the padded signal, the arguments unchanged. -/
theorem run : θ_run (defs (F := Ideal)) (onTc (τ := τ) (main (F := Ideal))) ⟨m, fun _ => 0, ρ⟩ fun r => ∀ c : Dev nD,
      r.2.mem ((c : Thread nD τ).loc main_v7)
        = Cert.Stft.stft (Cert.Stft.padded (m ((c : Thread nD τ).loc main_arg0))) (m ((c : Thread nD τ).loc main_arg1))
      ∧ r.2.mem ((c : Thread nD τ).loc main_v9)
        = Cert.Stft.stft (Cert.Stft.padded (m ((c : Thread nD τ).loc main_arg0))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post_real m r h c, post_imag m r h c,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.RefDefs.lean ====
/-
  The reference program's composed value, named in layers. `frameIdx` is the integer table of gather positions the
  program computes from two iotas: entry `(t, n, 0)` is `512 · t + n` as a 32-bit word, with `264192` added where that
  word is negative as a signed integer (it never is). `refOut xp w` is the result for a padded signal `xp` and a weight
  matrix `w`: the frames gathered from `xp` at `frameIdx`, contracted with `w` over the tap axis, transposed to
  `[batch, channel, row, frame]` and reshaped to `[batch, channel · 1025 + row, frame]`.
-/
import proofs.«165307_j76450417869070_1_alg».proof.Proof.Gen.ReferenceIdeal
import proofs.«165307_j76450417869070_1_alg».proof.Proof.Spec

noncomputable section

namespace Cert.ReferenceIdeal.RefValue

open Cert.ReferenceIdeal Cert.ReferenceIdeal.Gen Idealize.ShloMosaic

/-- `512 · t + n` as 32-bit words, at `[t, n]`: the product of the constant `512` with the frame number, plus the tap number. -/
def posWord : IVec S513x2048 32 :=
  addi
    (broadcastInDim S513x2048 ![0, 1] bcast_S513x1_S513x2048_0_1
      (muli (broadcastInDim S513x1 ![] bcast_S_S513x1 (constantI S_ 32 512#32))
        (broadcastInDim S513x1 ![0] bcast_S513_S513x1_0 (iotaInDim S513 32 0))))
    (broadcastInDim S513x2048 ![0, 1] bcast_S1x2048_S513x2048_0_1
      (broadcastInDim S1x2048 ![1] bcast_S2048_S1x2048_1 (iotaInDim S2048 32 0)))

/-- The gather positions `[t, n, 0]`: `posWord`, wrapped around by the padded length where negative. -/
def frameIdx : IVec S513x2048x1 32 :=
  broadcastInDim S513x2048x1 ![0, 1] bcast_S513x2048_S513x2048x1_0_1
    (select (cmpi .slt posWord (broadcastInDim S513x2048 ![] bcast_S_S513x2048 (constantI S_ 32 0#32)))
      (addi posWord (broadcastInDim S513x2048 ![] bcast_S_S513x2048 (constantI S_ 32 264192#32)))
      posWord)

/-- The frames `[b, c, t, n]` gathered from a padded signal. -/
def frames (xp : FVec Ideal S16x2x264192 .f32) : FVec Ideal S16x2x513x2048 .f32 :=
  Host.gather gather_S16x2x264192_S513x2048x1_S16x2x513x2048_01_2_n_n_2_2_1621 xp frameIdx

/-- The program's result for a padded signal and a weight matrix. -/
def refOut (xp : FVec Ideal S16x2x264192 .f32) (w : FVec Ideal S1025x2048 .f32) : FVec Ideal S16x2050x513 .f32 :=
  shapeCast S16x2050x513
    (transpose S16x2x1025x513 [1, 2, 0, 3]
      (Host.dotGeneral (F := Ideal) dot_S1025x2048_S16x2x513x2048_S1025x16x2x513_1_3_0_012_n_n none w (frames xp))
      transposes_S1025x16x2x513_S16x2x1025x513_1_2_0_3)
    shapeCasts_S16x2x1025x513_S16x2050x513

end Cert.ReferenceIdeal.RefValue

end
-- ==== Proof.RefRun.lean ====
/-
  The reference program's run, read back: its @main is a straight line of 34 tensor operations (a constant, the eight
  operations of the reflect pad, and twenty-five of its own). Every weakly fair execution terminates with the two results
  at the operations' composed terms of the arguments' launch contents, the arguments unchanged. The composed term is named
  in layers: the reflect pad (`Cert.Stft.padded`), and the gather, contraction, transpose and reshape over it (`refOut`,
  which names the integer table of gather positions `frameIdx`).
-/
import proofs.«165307_j76450417869070_1_alg».proof.Proof.Gen.ReferenceIdeal
import proofs.«165307_j76450417869070_1_alg».proof.Proof.RefDefs
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 34 operations in order, the pad's eight listed at its call over the call's buffers. -/
abbrev ops : List (HloOp τ sig (Elt F)) :=
  [ nullary main_c (constantI S_ 32 0#32),
    TRef.unary (.of main_arg0 : TRef sig ⟨S16x2x262144, .f32⟩) (.of main_call0_v0 : TRef sig ⟨S16x2x1, .f32⟩) (extractStridedSlice S16x2x1 ![0, 0, 0] · slices_S16x2x262144_S16x2x1_0_0_0),
    TRef.unary (.of main_arg0 : TRef sig ⟨S16x2x262144, .f32⟩) (.of main_call0_v1 : TRef sig ⟨S16x2x1024, .f32⟩) (extractStridedSlice S16x2x1024 ![0, 0, 1] · slices_S16x2x262144_S16x2x1024_0_0_1),
    TRef.unary (.of main_call0_v1 : TRef sig ⟨S16x2x1024, .f32⟩) (.of main_call0_v2 : TRef sig ⟨S16x2x1024, .f32⟩) (Host.reverse [2]),
    TRef.binary (.of main_call0_v2 : TRef sig ⟨S16x2x1024, .f32⟩) (.of main_arg0 : TRef sig ⟨S16x2x262144, .f32⟩) (.of main_call0_v3 : TRef sig ⟨S16x2x263168, .f32⟩) (fun a b => concatenate S16x2x263168 2 [⟨S16x2x1024, a⟩, ⟨S16x2x262144, b⟩] concatenates_S16x2x1024_S16x2x262144_S16x2x263168_d2),
    TRef.unary (.of main_call0_v3 : TRef sig ⟨S16x2x263168, .f32⟩) (.of main_call0_v4 : TRef sig ⟨S16x2x1, .f32⟩) (extractStridedSlice S16x2x1 ![0, 0, 263167] · slices_S16x2x263168_S16x2x1_0_0_263167),
    TRef.unary (.of main_call0_v3 : TRef sig ⟨S16x2x263168, .f32⟩) (.of main_call0_v5 : TRef sig ⟨S16x2x1024, .f32⟩) (extractStridedSlice S16x2x1024 ![0, 0, 262143] · slices_S16x2x263168_S16x2x1024_0_0_262143),
    TRef.unary (.of main_call0_v5 : TRef sig ⟨S16x2x1024, .f32⟩) (.of main_call0_v6 : TRef sig ⟨S16x2x1024, .f32⟩) (Host.reverse [2]),
    TRef.binary (.of main_call0_v3 : TRef sig ⟨S16x2x263168, .f32⟩) (.of main_call0_v6 : TRef sig ⟨S16x2x1024, .f32⟩) (.of main_v0 : TRef sig ⟨S16x2x264192, .f32⟩) (fun a b => concatenate S16x2x264192 2 [⟨S16x2x263168, a⟩, ⟨S16x2x1024, b⟩] concatenates_S16x2x263168_S16x2x1024_S16x2x264192_d2),
    nullary main_v1 (iotaInDim S513 32 0),
    unary main_v1 main_v2 (broadcastInDim S513x1 ![0] bcast_S513_S513x1_0 : (⟨S513, .i32⟩ : BufTy).Contents (Elt F) → (⟨S513x1, .i32⟩ : BufTy).Contents (Elt F)),
    nullary main_c_0 (constantI S_ 32 512#32),
    unary main_c_0 main_v3 (broadcastInDim S513x1 ![] bcast_S_S513x1 : (⟨S_, .i32⟩ : BufTy).Contents (Elt F) → (⟨S513x1, .i32⟩ : BufTy).Contents (Elt F)),
    binary main_v3 main_v2 main_v4 (muli : (⟨S513x1, .i32⟩ : BufTy).Contents (Elt F) → (⟨S513x1, .i32⟩ : BufTy).Contents (Elt F) → (⟨S513x1, .i32⟩ : BufTy).Contents (Elt F)),
    nullary main_v5 (iotaInDim S2048 32 0),
    unary main_v5 main_v6 (broadcastInDim S1x2048 ![1] bcast_S2048_S1x2048_1 : (⟨S2048, .i32⟩ : BufTy).Contents (Elt F) → (⟨S1x2048, .i32⟩ : BufTy).Contents (Elt F)),
    unary main_v4 main_v7 (broadcastInDim S513x2048 ![0, 1] bcast_S513x1_S513x2048_0_1 : (⟨S513x1, .i32⟩ : BufTy).Contents (Elt F) → (⟨S513x2048, .i32⟩ : BufTy).Contents (Elt F)),
    unary main_v6 main_v8 (broadcastInDim S513x2048 ![0, 1] bcast_S1x2048_S513x2048_0_1 : (⟨S1x2048, .i32⟩ : BufTy).Contents (Elt F) → (⟨S513x2048, .i32⟩ : BufTy).Contents (Elt F)),
    binary main_v7 main_v8 main_v9 (addi : (⟨S513x2048, .i32⟩ : BufTy).Contents (Elt F) → (⟨S513x2048, .i32⟩ : BufTy).Contents (Elt F) → (⟨S513x2048, .i32⟩ : BufTy).Contents (Elt F)),
    nullary main_c_1 (constantI S_ 32 0#32),
    unary main_c_1 main_v10 (broadcastInDim S513x2048 ![] bcast_S_S513x2048 : (⟨S_, .i32⟩ : BufTy).Contents (Elt F) → (⟨S513x2048, .i32⟩ : BufTy).Contents (Elt F)),
    binary main_v9 main_v10 main_v11 (cmpi .slt : (⟨S513x2048, .i32⟩ : BufTy).Contents (Elt F) → (⟨S513x2048, .i32⟩ : BufTy).Contents (Elt F) → (⟨S513x2048, .i1⟩ : BufTy).Contents (Elt F)),
    nullary main_c_2 (constantI S_ 32 264192#32),
    unary main_c_2 main_v12 (broadcastInDim S513x2048 ![] bcast_S_S513x2048 : (⟨S_, .i32⟩ : BufTy).Contents (Elt F) → (⟨S513x2048, .i32⟩ : BufTy).Contents (Elt F)),
    binary main_v9 main_v12 main_v13 (addi : (⟨S513x2048, .i32⟩ : BufTy).Contents (Elt F) → (⟨S513x2048, .i32⟩ : BufTy).Contents (Elt F) → (⟨S513x2048, .i32⟩ : BufTy).Contents (Elt F)),
    ternary main_v11 main_v13 main_v9 main_v14 (select : (⟨S513x2048, .i1⟩ : BufTy).Contents (Elt F) → (⟨S513x2048, .i32⟩ : BufTy).Contents (Elt F) → (⟨S513x2048, .i32⟩ : BufTy).Contents (Elt F) → (⟨S513x2048, .i32⟩ : BufTy).Contents (Elt F)),
    unary main_v14 main_v15 (broadcastInDim S513x2048x1 ![0, 1] bcast_S513x2048_S513x2048x1_0_1 : (⟨S513x2048, .i32⟩ : BufTy).Contents (Elt F) → (⟨S513x2048x1, .i32⟩ : BufTy).Contents (Elt F)),
    binary main_v0 main_v15 main_v16 ((fun x i => Host.gather gather_S16x2x264192_S513x2048x1_S16x2x513x2048_01_2_n_n_2_2_1621 x i) : (⟨S16x2x264192, .f32⟩ : BufTy).Contents (Elt F) → (⟨S513x2048x1, .i32⟩ : BufTy).Contents (Elt F) → (⟨S16x2x513x2048, .f32⟩ : BufTy).Contents (Elt F)),
    binary main_arg1 main_v16 main_v17 ((fun l r => Host.dotGeneral dot_S1025x2048_S16x2x513x2048_S1025x16x2x513_1_3_0_012_n_n none l r) : (⟨S1025x2048, .f32⟩ : BufTy).Contents (Elt F) → (⟨S16x2x513x2048, .f32⟩ : BufTy).Contents (Elt F) → (⟨S1025x16x2x513, .f32⟩ : BufTy).Contents (Elt F)),
    unary main_v17 main_v18 ((transpose S16x2x1025x513 [1, 2, 0, 3] · transposes_S1025x16x2x513_S16x2x1025x513_1_2_0_3) : (⟨S1025x16x2x513, .f32⟩ : BufTy).Contents (Elt F) → (⟨S16x2x1025x513, .f32⟩ : BufTy).Contents (Elt F)),
    binary main_arg2 main_v16 main_v19 ((fun l r => Host.dotGeneral dot_S1025x2048_S16x2x513x2048_S1025x16x2x513_1_3_0_012_n_n none l r) : (⟨S1025x2048, .f32⟩ : BufTy).Contents (Elt F) → (⟨S16x2x513x2048, .f32⟩ : BufTy).Contents (Elt F) → (⟨S1025x16x2x513, .f32⟩ : BufTy).Contents (Elt F)),
    unary main_v19 main_v20 ((transpose S16x2x1025x513 [1, 2, 0, 3] · transposes_S1025x16x2x513_S16x2x1025x513_1_2_0_3) : (⟨S1025x16x2x513, .f32⟩ : BufTy).Contents (Elt F) → (⟨S16x2x1025x513, .f32⟩ : BufTy).Contents (Elt F)),
    reshape main_v18 main_v21 rfl shapeCasts_S16x2x1025x513_S16x2050x513,
    reshape main_v20 main_v22 rfl shapeCasts_S16x2x1025x513_S16x2050x513 ]

-- thirty-four binds re-associated under the chain
set_option maxRecDepth 2048 in
/-- @main is that straight line: the pad's and the flip's definitions unfolded at their calls, both sides are one chain
    of steps once sequencing is re-associated. -/
theorem main_eq (c : Dev nD) : main (F := F) c = seq ops := by
  simp only [main, fn_pad.body, fn_flip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub ..,
    nullary_bufs_sub .., unary_bufs_sub .., nullary_bufs_sub .., unary_bufs_sub .., binary_bufs_sub .., nullary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., binary_bufs_sub .., unary_bufs_sub .., reshape_bufs_sub ..,
    reshape_bufs_sub ..⟩

/-! ## The fold, in two stretches: the pad, then the rest over the pad's result as a variable -/

/-- The constant and the pad's eight operations. -/
abbrev opsPad : List (HloOp τ sig (Elt F)) :=
  [ nullary main_c (constantI S_ 32 0#32),
    TRef.unary (.of main_arg0 : TRef sig ⟨S16x2x262144, .f32⟩) (.of main_call0_v0 : TRef sig ⟨S16x2x1, .f32⟩) (extractStridedSlice S16x2x1 ![0, 0, 0] · slices_S16x2x262144_S16x2x1_0_0_0),
    TRef.unary (.of main_arg0 : TRef sig ⟨S16x2x262144, .f32⟩) (.of main_call0_v1 : TRef sig ⟨S16x2x1024, .f32⟩) (extractStridedSlice S16x2x1024 ![0, 0, 1] · slices_S16x2x262144_S16x2x1024_0_0_1),
    TRef.unary (.of main_call0_v1 : TRef sig ⟨S16x2x1024, .f32⟩) (.of main_call0_v2 : TRef sig ⟨S16x2x1024, .f32⟩) (Host.reverse [2]),
    TRef.binary (.of main_call0_v2 : TRef sig ⟨S16x2x1024, .f32⟩) (.of main_arg0 : TRef sig ⟨S16x2x262144, .f32⟩) (.of main_call0_v3 : TRef sig ⟨S16x2x263168, .f32⟩) (fun a b => concatenate S16x2x263168 2 [⟨S16x2x1024, a⟩, ⟨S16x2x262144, b⟩] concatenates_S16x2x1024_S16x2x262144_S16x2x263168_d2),
    TRef.unary (.of main_call0_v3 : TRef sig ⟨S16x2x263168, .f32⟩) (.of main_call0_v4 : TRef sig ⟨S16x2x1, .f32⟩) (extractStridedSlice S16x2x1 ![0, 0, 263167] · slices_S16x2x263168_S16x2x1_0_0_263167),
    TRef.unary (.of main_call0_v3 : TRef sig ⟨S16x2x263168, .f32⟩) (.of main_call0_v5 : TRef sig ⟨S16x2x1024, .f32⟩) (extractStridedSlice S16x2x1024 ![0, 0, 262143] · slices_S16x2x263168_S16x2x1024_0_0_262143),
    TRef.unary (.of main_call0_v5 : TRef sig ⟨S16x2x1024, .f32⟩) (.of main_call0_v6 : TRef sig ⟨S16x2x1024, .f32⟩) (Host.reverse [2]),
    TRef.binary (.of main_call0_v3 : TRef sig ⟨S16x2x263168, .f32⟩) (.of main_call0_v6 : TRef sig ⟨S16x2x1024, .f32⟩) (.of main_v0 : TRef sig ⟨S16x2x264192, .f32⟩) (fun a b => concatenate S16x2x264192 2 [⟨S16x2x263168, a⟩, ⟨S16x2x1024, b⟩] concatenates_S16x2x263168_S16x2x1024_S16x2x264192_d2) ]

/-- The twenty-five operations after the pad. -/
abbrev opsMain : List (HloOp τ sig (Elt F)) :=
  [ nullary main_v1 (iotaInDim S513 32 0),
    unary main_v1 main_v2 (broadcastInDim S513x1 ![0] bcast_S513_S513x1_0 : (⟨S513, .i32⟩ : BufTy).Contents (Elt F) → (⟨S513x1, .i32⟩ : BufTy).Contents (Elt F)),
    nullary main_c_0 (constantI S_ 32 512#32),
    unary main_c_0 main_v3 (broadcastInDim S513x1 ![] bcast_S_S513x1 : (⟨S_, .i32⟩ : BufTy).Contents (Elt F) → (⟨S513x1, .i32⟩ : BufTy).Contents (Elt F)),
    binary main_v3 main_v2 main_v4 (muli : (⟨S513x1, .i32⟩ : BufTy).Contents (Elt F) → (⟨S513x1, .i32⟩ : BufTy).Contents (Elt F) → (⟨S513x1, .i32⟩ : BufTy).Contents (Elt F)),
    nullary main_v5 (iotaInDim S2048 32 0),
    unary main_v5 main_v6 (broadcastInDim S1x2048 ![1] bcast_S2048_S1x2048_1 : (⟨S2048, .i32⟩ : BufTy).Contents (Elt F) → (⟨S1x2048, .i32⟩ : BufTy).Contents (Elt F)),
    unary main_v4 main_v7 (broadcastInDim S513x2048 ![0, 1] bcast_S513x1_S513x2048_0_1 : (⟨S513x1, .i32⟩ : BufTy).Contents (Elt F) → (⟨S513x2048, .i32⟩ : BufTy).Contents (Elt F)),
    unary main_v6 main_v8 (broadcastInDim S513x2048 ![0, 1] bcast_S1x2048_S513x2048_0_1 : (⟨S1x2048, .i32⟩ : BufTy).Contents (Elt F) → (⟨S513x2048, .i32⟩ : BufTy).Contents (Elt F)),
    binary main_v7 main_v8 main_v9 (addi : (⟨S513x2048, .i32⟩ : BufTy).Contents (Elt F) → (⟨S513x2048, .i32⟩ : BufTy).Contents (Elt F) → (⟨S513x2048, .i32⟩ : BufTy).Contents (Elt F)),
    nullary main_c_1 (constantI S_ 32 0#32),
    unary main_c_1 main_v10 (broadcastInDim S513x2048 ![] bcast_S_S513x2048 : (⟨S_, .i32⟩ : BufTy).Contents (Elt F) → (⟨S513x2048, .i32⟩ : BufTy).Contents (Elt F)),
    binary main_v9 main_v10 main_v11 (cmpi .slt : (⟨S513x2048, .i32⟩ : BufTy).Contents (Elt F) → (⟨S513x2048, .i32⟩ : BufTy).Contents (Elt F) → (⟨S513x2048, .i1⟩ : BufTy).Contents (Elt F)),
    nullary main_c_2 (constantI S_ 32 264192#32),
    unary main_c_2 main_v12 (broadcastInDim S513x2048 ![] bcast_S_S513x2048 : (⟨S_, .i32⟩ : BufTy).Contents (Elt F) → (⟨S513x2048, .i32⟩ : BufTy).Contents (Elt F)),
    binary main_v9 main_v12 main_v13 (addi : (⟨S513x2048, .i32⟩ : BufTy).Contents (Elt F) → (⟨S513x2048, .i32⟩ : BufTy).Contents (Elt F) → (⟨S513x2048, .i32⟩ : BufTy).Contents (Elt F)),
    ternary main_v11 main_v13 main_v9 main_v14 (select : (⟨S513x2048, .i1⟩ : BufTy).Contents (Elt F) → (⟨S513x2048, .i32⟩ : BufTy).Contents (Elt F) → (⟨S513x2048, .i32⟩ : BufTy).Contents (Elt F) → (⟨S513x2048, .i32⟩ : BufTy).Contents (Elt F)),
    unary main_v14 main_v15 (broadcastInDim S513x2048x1 ![0, 1] bcast_S513x2048_S513x2048x1_0_1 : (⟨S513x2048, .i32⟩ : BufTy).Contents (Elt F) → (⟨S513x2048x1, .i32⟩ : BufTy).Contents (Elt F)),
    binary main_v0 main_v15 main_v16 ((fun x i => Host.gather gather_S16x2x264192_S513x2048x1_S16x2x513x2048_01_2_n_n_2_2_1621 x i) : (⟨S16x2x264192, .f32⟩ : BufTy).Contents (Elt F) → (⟨S513x2048x1, .i32⟩ : BufTy).Contents (Elt F) → (⟨S16x2x513x2048, .f32⟩ : BufTy).Contents (Elt F)),
    binary main_arg1 main_v16 main_v17 ((fun l r => Host.dotGeneral dot_S1025x2048_S16x2x513x2048_S1025x16x2x513_1_3_0_012_n_n none l r) : (⟨S1025x2048, .f32⟩ : BufTy).Contents (Elt F) → (⟨S16x2x513x2048, .f32⟩ : BufTy).Contents (Elt F) → (⟨S1025x16x2x513, .f32⟩ : BufTy).Contents (Elt F)),
    unary main_v17 main_v18 ((transpose S16x2x1025x513 [1, 2, 0, 3] · transposes_S1025x16x2x513_S16x2x1025x513_1_2_0_3) : (⟨S1025x16x2x513, .f32⟩ : BufTy).Contents (Elt F) → (⟨S16x2x1025x513, .f32⟩ : BufTy).Contents (Elt F)),
    binary main_arg2 main_v16 main_v19 ((fun l r => Host.dotGeneral dot_S1025x2048_S16x2x513x2048_S1025x16x2x513_1_3_0_012_n_n none l r) : (⟨S1025x2048, .f32⟩ : BufTy).Contents (Elt F) → (⟨S16x2x513x2048, .f32⟩ : BufTy).Contents (Elt F) → (⟨S1025x16x2x513, .f32⟩ : BufTy).Contents (Elt F)),
    unary main_v19 main_v20 ((transpose S16x2x1025x513 [1, 2, 0, 3] · transposes_S1025x16x2x513_S16x2x1025x513_1_2_0_3) : (⟨S1025x16x2x513, .f32⟩ : BufTy).Contents (Elt F) → (⟨S16x2x1025x513, .f32⟩ : BufTy).Contents (Elt F)),
    reshape main_v18 main_v21 rfl shapeCasts_S16x2x1025x513_S16x2050x513,
    reshape main_v20 main_v22 rfl shapeCasts_S16x2x1025x513_S16x2050x513 ]

theorem ops_split : (ops : List (HloOp τ sig (Elt F))) = opsPad ++ opsMain := rfl

/-- The fold over two stretches run one after the other is the second's over the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

set_option maxRecDepth 8192 in
/-- After the pad's stretch the padded buffer holds the reflect pad of the signal: the eight operations compose to
    `Cert.Stft.padded` (the same operations over the same shapes; the shape facts are proofs of the same propositions). -/
theorem pad_eq (V : Valuation τ sig (Elt Ideal)) :
    after opsPad V (main_v0 : DevRef τ sig) = Cert.Stft.padded (V (main_arg0 : DevRef τ sig)) := by
  after_results
  rfl

theorem pad_arg0 (V : Valuation τ sig (Elt Ideal)) :
    after opsPad V (main_arg0 : DevRef τ sig) = V (main_arg0 : DevRef τ sig) := by after_results
theorem pad_arg1 (V : Valuation τ sig (Elt Ideal)) :
    after opsPad V (main_arg1 : DevRef τ sig) = V (main_arg1 : DevRef τ sig) := by after_results
theorem pad_arg2 (V : Valuation τ sig (Elt Ideal)) :
    after opsPad V (main_arg2 : DevRef τ sig) = V (main_arg2 : DevRef τ sig) := by after_results

set_option maxRecDepth 8192 in
/-- After the second stretch the first result holds `refOut` of the padded buffer and the first weight matrix: the
    integer chain is `frameIdx`, the rest `refOut`'s own text. -/
theorem main21_eq (W : Valuation τ sig (Elt Ideal)) :
    after opsMain W (main_v21 : DevRef τ sig) = refOut (W (main_v0 : DevRef τ sig)) (W (main_arg1 : DevRef τ sig)) := by
  after_results_simp
  rfl

set_option maxRecDepth 8192 in
/-- The second result likewise, over the second weight matrix. -/
theorem main22_eq (W : Valuation τ sig (Elt Ideal)) :
    after opsMain W (main_v22 : DevRef τ sig) = refOut (W (main_v0 : DevRef τ sig)) (W (main_arg2 : DevRef τ sig)) := by
  after_results_simp
  rfl

theorem main_arg0_eq (W : Valuation τ sig (Elt Ideal)) :
    after opsMain W (main_arg0 : DevRef τ sig) = W (main_arg0 : DevRef τ sig) := by after_results_simp
theorem main_arg1_eq (W : Valuation τ sig (Elt Ideal)) :
    after opsMain W (main_arg1 : DevRef τ sig) = W (main_arg1 : DevRef τ sig) := by after_results_simp
theorem main_arg2_eq (W : Valuation τ sig (Elt Ideal)) :
    after opsMain W (main_arg2 : DevRef τ sig) = W (main_arg2 : DevRef τ sig) := by after_results_simp

theorem out21_eq (V : Valuation τ sig (Elt Ideal)) :
    after ops V (main_v21 : DevRef τ sig)
      = refOut (Cert.Stft.padded (V (main_arg0 : DevRef τ sig))) (V (main_arg1 : DevRef τ sig)) := by
  rw [ops_split, after_append', main21_eq, pad_eq, pad_arg1]
theorem out22_eq (V : Valuation τ sig (Elt Ideal)) :
    after ops V (main_v22 : DevRef τ sig)
      = refOut (Cert.Stft.padded (V (main_arg0 : DevRef τ sig))) (V (main_arg2 : DevRef τ sig)) := by
  rw [ops_split, after_append', main22_eq, pad_eq, pad_arg2]
theorem arg0_eq (V : Valuation τ sig (Elt Ideal)) :
    after ops V (main_arg0 : DevRef τ sig) = V (main_arg0 : DevRef τ sig) := by
  rw [ops_split, after_append', main_arg0_eq, pad_arg0]
theorem arg1_eq (V : Valuation τ sig (Elt Ideal)) :
    after ops V (main_arg1 : DevRef τ sig) = V (main_arg1 : DevRef τ sig) := by
  rw [ops_split, after_append', main_arg1_eq, pad_arg1]
theorem arg2_eq (V : Valuation τ sig (Elt Ideal)) :
    after ops V (main_arg2 : DevRef τ sig) = V (main_arg2 : DevRef τ sig) := by
  rw [ops_split, after_append', main_arg2_eq, pad_arg2]

/-- At the ideal instance, from any memory with zero counters: every weakly fair execution of @main terminates with each
    result at `refOut` of the reflect-padded signal and its weight matrix, the arguments unchanged. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21)
          = refOut (Cert.Stft.padded (m ((c.tc : Thread nD τ).loc main_arg0))) (m ((c.tc : Thread nD τ).loc main_arg1))
      ∧ r.2.mem ((c.tc : Thread nD τ).loc main_v22)
          = refOut (Cert.Stft.padded (m ((c.tc : Thread nD τ).loc main_arg0))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v21).trans (out21_eq _), (h c main_v22).trans (out22_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.ReferenceIdeal.RefValue

end
-- ==== Proof.RefGather.lean ====
/-
  The program's gather read at an index. Its dimension numbers keep the operand's axes 0 and 1 whole (offset axes 0 and 1
  of the result, slice sizes 16 and 2) and collapse axis 2 (slice size 1), whose start is the one component of the start
  index; the result's axes 2 and 3 are the start indices' axes 0 and 1. So result element `(b, c, t, n)` is the operand
  at `(b, c, p)` with `p` the start index `idx[t, n, 0]` read as a signed integer and clamped into `[0, 264191]`.
-/
import proofs.«165307_j76450417869070_1_alg».proof.Proof.Gen.ReferenceIdeal
import Idealize.ShloMosaic.Lib.ValueIdx

noncomputable section

namespace Cert.ReferenceIdeal.RefValue

open Cert.ReferenceIdeal Cert.ReferenceIdeal.Gen Idealize.ShloMosaic Idealize.ShloMosaic.ValueIdx

/-- The gather's dimension numbers. -/
abbrev gdims : GatherDims S16x2x264192 S513x2048x1 S16x2x513x2048 :=
  gather_S16x2x264192_S513x2048x1_S16x2x513x2048_01_2_n_n_2_2_1621

/-- The start-indices index that result index `(b, c, t, n)` reads: `(t, n, 0)`. -/
theorem gdims_siIdx (b : Fin 16) (c : Fin 2) (t : Fin 513) (n : Fin 2048)
    (h : List.idxOf (2 : Fin 3) gdims.startIndexMap < gdims.startIndexMap.length) :
    gdims.siIdx (ix4 b c t n) ⟨List.idxOf (2 : Fin 3) gdims.startIndexMap, h⟩ = ix3 t n (0 : Fin 1) := by
  funext a; refine Fin.ext ?_
  match a with
  | ⟨0, _⟩ => rfl
  | ⟨1, _⟩ => rfl
  | ⟨2, _⟩ => rfl

/-- THE GATHER READ AT `(b, c, t, n)`: the operand at `(b, c, p)`, `p` the start index `idx[t, n, 0]` read signed and
    clamped into `[0, 264191]`. -/
theorem gather_apply {α : Type} (x : S16x2x264192.Idx → α) (idx : IVec S513x2048x1 32)
    (b : Fin 16) (c : Fin 2) (t : Fin 513) (n : Fin 2048) :
    Host.gather gdims x idx (ix4 b c t n)
      = x (ix3 b c ⟨min (idx (ix3 t n (0 : Fin 1))).toInt.toNat 264191, by omega⟩) := by
  unfold Host.gather
  congr 1
  funext a
  refine Fin.ext ?_
  show gdims.start (ix4 b c t n) idx a + gdims.batchCoord (ix4 b c t n) a + gdims.offCoord (ix4 b c t n) a = _
  rw [GatherDims.batchCoord_eq_zero _ _ _ List.not_mem_nil, Nat.add_zero]
  match a with
  | ⟨0, _⟩ =>
    have hs : gdims.start (ix4 b c t n) idx (0 : Fin 3) = 0 := by
      unfold GatherDims.start; exact dif_neg (by decide)
    have ho : gdims.offCoord (ix4 b c t n) (0 : Fin 3) = b.val := by
      unfold GatherDims.offCoord; rw [dif_pos (by decide)]; rfl
    show gdims.start (ix4 b c t n) idx (0 : Fin 3) + gdims.offCoord (ix4 b c t n) (0 : Fin 3) = b.val
    rw [hs, ho, Nat.zero_add]
  | ⟨1, _⟩ =>
    have hs : gdims.start (ix4 b c t n) idx (1 : Fin 3) = 0 := by
      unfold GatherDims.start; exact dif_neg (by decide)
    have ho : gdims.offCoord (ix4 b c t n) (1 : Fin 3) = c.val := by
      unfold GatherDims.offCoord; rw [dif_pos (by decide)]; rfl
    show gdims.start (ix4 b c t n) idx (1 : Fin 3) + gdims.offCoord (ix4 b c t n) (1 : Fin 3) = c.val
    rw [hs, ho, Nat.zero_add]
  | ⟨2, _⟩ =>
    have ho : gdims.offCoord (ix4 b c t n) (2 : Fin 3) = 0 :=
      GatherDims.offCoord_eq_zero _ _ _ (by decide)
    have hs : gdims.start (ix4 b c t n) idx (2 : Fin 3) = min (idx (ix3 t n (0 : Fin 1))).toInt.toNat 264191 := by
      unfold GatherDims.start
      rw [dif_pos (show (2 : Fin 3) ∈ gdims.startIndexMap by decide), gdims_siIdx]
      rfl
    show gdims.start (ix4 b c t n) idx (2 : Fin 3) + gdims.offCoord (ix4 b c t n) (2 : Fin 3)
      = min (idx (ix3 t n (0 : Fin 1))).toInt.toNat 264191
    rw [hs, ho, Nat.add_zero]

end Cert.ReferenceIdeal.RefValue

end
-- ==== Proof.RefIndex.lean ====
/-
  The gather position as a number. For a frame `t < 513` and a tap `n < 2048` the 32-bit word `512 · t + n` is the number
  `512 · t + n` (at most `264191`, far below `2 ^ 31`): it is not negative as a signed integer, so the program's wrap-around
  by the padded length leaves it alone, and read as a signed integer it is that number.
-/
import Idealize.ShloMosaic.PureOps

namespace Cert.ReferenceIdeal.RefValue

open Idealize.ShloMosaic

/-- The word `512 · t + n` is the number `512 · t + n`. -/
theorem posWord_toNat (t : Fin 513) (n : Fin 2048) :
    (IntOp.addi (IntOp.muli 512#32 (BitVec.ofNat 32 t.val)) (BitVec.ofNat 32 n.val)).toNat = 512 * t.val + n.val := by
  unfold IntOp.addi IntOp.muli
  rw [BitVec.toNat_add, BitVec.toNat_mul, BitVec.toNat_ofNat, BitVec.toNat_ofNat, BitVec.toNat_ofNat]
  have := t.isLt
  have := n.isLt
  omega

/-- A word below `2 ^ 31` is not negative, so the wrap-around keeps it. -/
theorem wrap_of_small (v : BitVec 32) (h : v.toNat < 2 ^ 31) :
    Scalar.select (IntOp.cmpi .slt v 0#32) (IntOp.addi v 264192#32) v = v := by
  have hv : v.toInt = (v.toNat : Int) := by
    rw [BitVec.toInt_eq_toNat_cond]; split <;> omega
  have hs : v.slt 0#32 = false := by
    simp only [BitVec.slt, hv, BitVec.toInt_zero]
    exact decide_eq_false (by omega)
  unfold IntOp.cmpi Scalar.select
  simp only [hs]
  exact if_neg (by decide)

/-- A word below `2 ^ 31` read as a signed integer is its number. -/
theorem toInt_toNat_of_small (v : BitVec 32) (h : v.toNat < 2 ^ 31) : v.toInt.toNat = v.toNat := by
  have hv : v.toInt = (v.toNat : Int) := by
    rw [BitVec.toInt_eq_toNat_cond]; split <;> omega
  rw [hv]; exact Int.toNat_natCast _

/-- The gather position of frame `t`, tap `n`, as the program computes it, is `512 · t + n`. -/
theorem frameWord_toNat (t : Fin 513) (n : Fin 2048) :
    (Scalar.select
        (IntOp.cmpi .slt (IntOp.addi (IntOp.muli 512#32 (BitVec.ofNat 32 t.val)) (BitVec.ofNat 32 n.val)) 0#32)
        (IntOp.addi (IntOp.addi (IntOp.muli 512#32 (BitVec.ofNat 32 t.val)) (BitVec.ofNat 32 n.val)) 264192#32)
        (IntOp.addi (IntOp.muli 512#32 (BitVec.ofNat 32 t.val)) (BitVec.ofNat 32 n.val))).toInt.toNat
      = 512 * t.val + n.val := by
  have h := posWord_toNat t n
  have hlt : (IntOp.addi (IntOp.muli 512#32 (BitVec.ofNat 32 t.val)) (BitVec.ofNat 32 n.val)).toNat < 2 ^ 31 := by
    rw [h]; have := t.isLt; have := n.isLt; omega
  rw [wrap_of_small _ hlt, toInt_toNat_of_small _ hlt, h]

end Cert.ReferenceIdeal.RefValue
-- ==== Proof.RefValue.lean ====
/-
  The reference program's value is the short-time transform of the specification. Read at a result index
  `(b, c · 1025 + k, t)`: the reshape reads `(b, c, k, t)` of the transposed array (the same row-major position), the
  transpose reads `(k, b, c, t)` of the contraction, the contraction is the sum over the 2048 taps `n` of
  `w[k, n] · frames[b, c, t, n]`, and the gathered frame entry is the padded signal at position `512 · t + n` — the
  gather position is that number, which is below the padded length, so the clamp leaves it.
-/
import proofs.«165307_j76450417869070_1_alg».proof.Proof.RefDefs
import proofs.«165307_j76450417869070_1_alg».proof.Proof.RefGather
import proofs.«165307_j76450417869070_1_alg».proof.Proof.RefIndex
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The gather positions and the frames -/

/-- The gather position at `(t, n, 0)` is the program's word chain at the frame and tap numbers: every broadcast reads
    its operand at the coordinates it keeps, the iotas read the coordinate. -/
theorem frameIdx_apply (t : Fin 513) (n : Fin 2048) :
    frameIdx (ix3 t n (0 : Fin 1))
      = Scalar.select
          (IntOp.cmpi .slt (IntOp.addi (IntOp.muli 512#32 (BitVec.ofNat 32 t.val)) (BitVec.ofNat 32 n.val)) 0#32)
          (IntOp.addi (IntOp.addi (IntOp.muli 512#32 (BitVec.ofNat 32 t.val)) (BitVec.ofNat 32 n.val)) 264192#32)
          (IntOp.addi (IntOp.muli 512#32 (BitVec.ofNat 32 t.val)) (BitVec.ofNat 32 n.val)) := rfl

/-- Read as a signed integer it is `512 · t + n`. -/
theorem frameIdx_pos (t : Fin 513) (n : Fin 2048) :
    (frameIdx (ix3 t n (0 : Fin 1))).toInt.toNat = 512 * t.val + n.val := by
  rw [frameIdx_apply]; exact frameWord_toNat t n

/-- Frame `t`, tap `n` of the gathered frames is the padded signal at position `512 · t + n`. -/
theorem frames_apply (xp : FVec Ideal S16x2x264192 .f32) (b : Fin 16) (c : Fin 2) (t : Fin 513) (n : Fin 2048) :
    frames xp (ix4 b c t n) = xp (ix3 b c (Cert.Stft.pos t n)) := by
  unfold frames
  rw [gather_apply]
  have h : min (frameIdx (ix3 t n (0 : Fin 1))).toInt.toNat 264191 = 512 * t.val + n.val := by
    rw [frameIdx_pos]; have := t.isLt; have := n.isLt; omega
  exact congrArg xp (congrArg (ix3 b c) (Fin.ext h))

/-! ## The contraction -/

/-- The contraction's dimension numbers: the weights' axis 1 against the frames' axis 3. -/
abbrev ddims : DotDims S1025x2048 S16x2x513x2048 S1025x16x2x513 :=
  dot_S1025x2048_S16x2x513x2048_S1025x16x2x513_1_3_0_012_n_n

theorem lhs_0 (i : S1025x16x2x513.Idx) (q : ddims.contr.Idx) : (ddims.lhsIdx i q 0).val = (i 0).val := by
  unfold DotDims.lhsIdx
  rw [dif_neg (show ¬(0 : Fin S1025x2048.rank) ∈ ddims.lhsBatch by decide),
    dif_pos (show (0 : Fin S1025x2048.rank) ∈ ddims.lhsNonContracting by decide)]
  rfl
theorem lhs_1 (i : S1025x16x2x513.Idx) (q : ddims.contr.Idx) : (ddims.lhsIdx i q 1).val = (q ⟨0, by decide⟩).val :=
  ddims.lhsIdx_val_of_single rfl i q
theorem rhs_0 (i : S1025x16x2x513.Idx) (q : ddims.contr.Idx) : (ddims.rhsIdx i q 0).val = (i 1).val := by
  unfold DotDims.rhsIdx
  rw [dif_neg (show ¬(0 : Fin S16x2x513x2048.rank) ∈ ddims.rhsBatch by decide),
    dif_pos (show (0 : Fin S16x2x513x2048.rank) ∈ ddims.rhsNonContracting by decide)]
  rfl
theorem rhs_1 (i : S1025x16x2x513.Idx) (q : ddims.contr.Idx) : (ddims.rhsIdx i q 1).val = (i 2).val := by
  unfold DotDims.rhsIdx
  rw [dif_neg (show ¬(1 : Fin S16x2x513x2048.rank) ∈ ddims.rhsBatch by decide),
    dif_pos (show (1 : Fin S16x2x513x2048.rank) ∈ ddims.rhsNonContracting by decide)]
  rfl
theorem rhs_2 (i : S1025x16x2x513.Idx) (q : ddims.contr.Idx) : (ddims.rhsIdx i q 2).val = (i 3).val := by
  unfold DotDims.rhsIdx
  rw [dif_neg (show ¬(2 : Fin S16x2x513x2048.rank) ∈ ddims.rhsBatch by decide),
    dif_pos (show (2 : Fin S16x2x513x2048.rank) ∈ ddims.rhsNonContracting by decide)]
  rfl
theorem rhs_3 (i : S1025x16x2x513.Idx) (q : ddims.contr.Idx) : (ddims.rhsIdx i q 3).val = (q ⟨0, by decide⟩).val :=
  ddims.rhsIdx_val_of_single rfl i q

/-- THE CONTRACTION READ AT `(k, b, c, t)`: the sum over the taps of the weight times the frame entry. -/
theorem dot_apply (w : FVec Ideal S1025x2048 .f32) (y : FVec Ideal S16x2x513x2048 .f32)
    (k : Fin 1025) (b : Fin 16) (c : Fin 2) (t : Fin 513) :
    Host.dotGeneral (F := Ideal) ddims none w y (ix4 k b c t) = ∑ n : Fin 2048, w (ix2 k n) * y (ix4 b c t n) := by
  simp only [Host.dotGeneral]
  rw [Ideal.dotGeneral_apply, ← Equiv.sum_comp (contrEquiv1 ddims 2048 rfl rfl).symm]
  refine Finset.sum_congr rfl fun n _ => ?_
  have hk := contrEquiv1_symm_val ddims 2048 rfl rfl n
  have el : ddims.lhsIdx (ix4 k b c t) ((contrEquiv1 ddims 2048 rfl rfl).symm n) = ix2 k n := funext fun a => Fin.ext (by
    match a with
    | ⟨0, _⟩ => exact lhs_0 _ _
    | ⟨1, _⟩ => exact (lhs_1 _ _).trans hk)
  have er : ddims.rhsIdx (ix4 k b c t) ((contrEquiv1 ddims 2048 rfl rfl).symm n) = ix4 b c t n := funext fun a => Fin.ext (by
    match a with
    | ⟨0, _⟩ => exact rhs_0 _ _
    | ⟨1, _⟩ => exact rhs_1 _ _
    | ⟨2, _⟩ => exact rhs_2 _ _
    | ⟨3, _⟩ => exact (rhs_3 _ _).trans hk)
  rw [el, er]

/-! ## The result -/

/-- The program's result for a padded signal and a weight matrix is the specification's transform of them. -/
theorem refOut_eq (xp : FVec Ideal S16x2x264192 .f32) (w : FVec Ideal S1025x2048 .f32) :
    refOut xp w = Cert.Stft.stft xp w := by
  funext j
  obtain ⟨b, r, t, rfl⟩ : ∃ (b : Fin 16) (r : Fin 2050) (t : Fin 513), j = ix3 b r t := ⟨j 0, j 1, j 2, eq_ix3 j⟩
  obtain ⟨c, k, rfl⟩ : ∃ (c : Fin 2) (k : Fin 1025), r = ⟨c.val * 1025 + k.val, by omega⟩ :=
    ⟨⟨r.val / 1025, by have := r.isLt; omega⟩, ⟨r.val % 1025, Nat.mod_lt _ (by decide)⟩, Fin.ext (by
      show r.val = r.val / 1025 * 1025 + r.val % 1025
      omega)⟩
  rw [Cert.Stft.stft_apply]
  unfold refOut
  rw [shapeCast_apply _ shapeCasts_S16x2x1025x513_S16x2050x513 (ix3 b ⟨c.val * 1025 + k.val, by omega⟩ t) (ix4 b c k t) (by
    rw [Shape.rowMajor_val_four, Shape.rowMajor_val_three]
    show ((b.val * 2 + c.val) * 1025 + k.val) * 513 + t.val = (b.val * 2050 + (c.val * 1025 + k.val)) * 513 + t.val
    omega)]
  rw [transpose_apply [1, 2, 0, 3] _ transposes_S1025x16x2x513_S16x2x1025x513_1_2_0_3 (ix4 b c k t) (ix4 k b c t) (fun a =>
    match a with
    | ⟨0, _⟩ => rfl
    | ⟨1, _⟩ => rfl
    | ⟨2, _⟩ => rfl
    | ⟨3, _⟩ => rfl)]
  rw [dot_apply]
  unfold Cert.Stft.tapSum
  refine Finset.sum_congr rfl fun n _ => ?_
  rw [frames_apply]

end Cert.ReferenceIdeal.RefValue

end
-- ==== Proof.RefMain.lean ====
/-
  The reference program's run against the specification: every weakly fair execution of its @main terminates with the
  two results at the short-time transform (`Cert.Stft.stft`) of the reflect-padded signal with each weight matrix, the
  arguments unchanged. It is the run read back (`run_out`: each result is `refOut` of the padded signal and its weight
  matrix) followed by `refOut = stft` (`refOut_eq`).
-/
import proofs.«165307_j76450417869070_1_alg».proof.Proof.RefRun
import proofs.«165307_j76450417869070_1_alg».proof.Proof.RefValue

noncomputable section

namespace Cert.ReferenceIdeal.RefValue

open Cert.ReferenceIdeal Cert.ReferenceIdeal.Gen Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = Cert.Stft.stft (Cert.Stft.padded (m ((c.tc : Thread nD τ).loc main_arg0))) (m ((c.tc : Thread nD τ).loc main_arg1))
      ∧ r.2.mem ((c.tc : Thread nD τ).loc main_v22) = Cert.Stft.stft (Cert.Stft.padded (m ((c.tc : Thread nD τ).loc main_arg0))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (refOut_eq _ _), (h c).2.1.trans (refOut_eq _ _), (h c).2.2⟩)
    (run_out m ρ)

end Cert.ReferenceIdeal.RefValue

end
-- ==== Proof.lean ====
/-
  A short-time Fourier transform computed two ways.

  Both programs reflect-pad a signal x[b, c, ·] of 262144 samples by 1024 on each side and, for each of 513 frames t
  (hop 512, length 2048) and each of 1025 rows k of two weight matrices, form the projection
      ∑ n < 2048,  w[k, n] · xp[b, c, 512·t + n],
  listing the results as [16, 2·1025, 513] with row c·1025 + k.

  The reference gathers the 513 × 2048 frame samples through an integer index table 512·t + n and contracts the
  whole frame axis at once. The kernel never forms the frames: since 2048 = 4 · 512, frame t is the four consecutive
  chunks t, t+1, t+2, t+3 of the padded signal cut into 516 chunks of 512, so it multiplies weight columns
  512·i .. 512·i + 511 by chunk rows i .. i + 512 for i = 0..3 and adds the four products onto a zero. Tap
  n = 512·i + s of frame t is sample s of chunk t + i, which is position 512·t + n of the padded signal, so the four
  chunk sums regroup into the one sum over n. At the ideal values a change of float format is the identity and every
  sum is exact; regrouping uses only that addition of extended reals is commutative and associative, so no entry has
  to be finite and the precondition is never opened. The pad is the same function of the argument on both sides.

  The idealized kernel is the kernel's own text read at the ideal values (nothing was rewritten), so `preserves` is
  trivial; the three frames are the two generated frame runs and the reference's run with its results dropped.
-/
import proofs.«165307_j76450417869070_1_alg».proof.Defs
import proofs.«165307_j76450417869070_1_alg».proof.Proof.Gen.Kernel
import proofs.«165307_j76450417869070_1_alg».proof.Proof.Gen.Kernel.Frame
import proofs.«165307_j76450417869070_1_alg».proof.Proof.Gen.KernelIdeal
import proofs.«165307_j76450417869070_1_alg».proof.Proof.Gen.KernelIdeal.Frame
import proofs.«165307_j76450417869070_1_alg».proof.Proof.Gen.ReferenceIdeal
import proofs.«165307_j76450417869070_1_alg».proof.Proof.Gen.Pre_finite_inputs
import proofs.«165307_j76450417869070_1_alg».proof.Proof.Spec
import proofs.«165307_j76450417869070_1_alg».proof.Proof.KRun
import proofs.«165307_j76450417869070_1_alg».proof.Proof.RefMain

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_reference : Cert.frame_ReferenceIdeal := fun m ρ _ =>
  (θ_run Cert.ReferenceIdeal.defs _ _).mono (fun _ h c => (h c).2.2) (Cert.ReferenceIdeal.RefValue.run m ρ)

theorem preserves : Cert.preserves_Kernel_KernelIdeal := trivial

/-- Both programs end with each result at `stft` of the padded signal and the matching weight matrix; from memories
    that agree on the three arguments these are the same arrays. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ?_) (Cert.ReferenceIdeal.RefValue.run m' ρ')
  obtain ⟨h1, h2, h3, h4, h5⟩ := h c
  obtain ⟨a0, a1, a2⟩ := hagree c
  refine ⟨h1.trans ?_, h2.trans ?_, h3, h4, h5⟩
  · rw [a0, a1]
  · rw [a0, a2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
